-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S128x128 : Shape := ⟨2, ![128, 128]⟩
abbrev S1000000 : Shape := ⟨1, ![1000000]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S1000000 : S_.BroadcastsInDim S1000000 (![] : Fin 0 → Fin S1000000.rank)
  reducesTo_S1000000_S_d0 : S1000000.ReducesTo [0] S_

variable [Facts]

def fn_part2 {F : FTy → Type} [FloatOps F] (main_arg7 : FVec F S1000000 .f32) (main_arg8 : FVec F S1000000 .f32) (main_v33 : IVec S_ 1) : IVec S_ 1 :=
  let main_v34 : FVec F S1000000 .f32 := Host.absf main_arg7
  let main_cst_12 : FVec F S_ .f32 := constant S_ .f32 0x7F800000#32
  let main_v35 : FVec F S1000000 .f32 := broadcastInDim S1000000 ![] bcast_S_S1000000 main_cst_12
  let main_v36 : IVec S1000000 1 := cmpf .olt main_v34 main_v35
  let main_c_13 : IVec S_ 1 := constantI S_ 1 1#1
  let main_v37 : IVec S_ 1 := (fun x v => Host.reduce IntOp.andi x v reducesTo_S1000000_S_d0 h_S_) main_v36 main_c_13
  let main_v38 : IVec S_ 1 := andi main_v33 main_v37
  let main_v39 : FVec F S1000000 .f32 := Host.absf main_arg8
  let main_cst_14 : FVec F S_ .f32 := constant S_ .f32 0x7F800000#32
  let main_v40 : FVec F S1000000 .f32 := broadcastInDim S1000000 ![] bcast_S_S1000000 main_cst_14
  let main_v41 : IVec S1000000 1 := cmpf .olt main_v39 main_v40
  let main_c_15 : IVec S_ 1 := constantI S_ 1 1#1
  let main_v42 : IVec S_ 1 := (fun x v => Host.reduce IntOp.andi x v reducesTo_S1000000_S_d0 h_S_) main_v41 main_c_15
  let main_v43 : IVec S_ 1 := andi main_v38 main_v42
  main_v43

def fn_part1 {F : FTy → Type} [FloatOps F] (main_arg4 : FVec F S128x128 .f32) (main_arg5 : FVec F S1000000 .f32) (main_arg6 : FVec F S1000000 .f32) (main_arg7 : FVec F S1000000 .f32) (main_arg8 : FVec F S1000000 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S1000000 .f32 := Host.absf main_arg5
  let main_cst_8 : FVec F S_ .f32 := constant S_ .f32 0x7F800000#32
  let main_v25 : FVec F S1000000 .f32 := broadcastInDim S1000000 ![] bcast_S_S1000000 main_cst_8
  let main_v26 : IVec S1000000 1 := cmpf .olt main_v24 main_v25
  let main_c_9 : IVec S_ 1 := constantI S_ 1 1#1
  let main_v27 : IVec S_ 1 := (fun x v => Host.reduce IntOp.andi x v reducesTo_S1000000_S_d0 h_S_) main_v26 main_c_9
  let main_v28 : IVec S_ 1 := andi main_v23 main_v27
  let main_v29 : FVec F S1000000 .f32 := Host.absf main_arg6
  let main_cst_10 : FVec F S_ .f32 := constant S_ .f32 0x7F800000#32
  let main_v30 : FVec F S1000000 .f32 := broadcastInDim S1000000 ![] bcast_S_S1000000 main_cst_10
  let main_v31 : IVec S1000000 1 := cmpf .olt main_v29 main_v30
  let main_c_11 : IVec S_ 1 := constantI S_ 1 1#1
  let main_v32 : IVec S_ 1 := (fun x v => Host.reduce IntOp.andi x v reducesTo_S1000000_S_d0 h_S_) main_v31 main_c_11
  let main_v33 : IVec S_ 1 := andi main_v28 main_v32
  fn_part2 (F := F) main_arg7 main_arg8 main_v33

def fn {F : FTy → Type} [FloatOps F] (main_arg0 : FVec F S200000x128 .f32) (main_arg1 : FVec F S128x128 .f32) (main_arg2 : FVec F S128x128 .f32) (main_arg3 : FVec F S128x128 .f32) (main_arg4 : FVec F S128x128 .f32) (main_arg5 : FVec F S1000000 .f32) (main_arg6 : FVec F S1000000 .f32) (main_arg7 : FVec F S1000000 .f32) (main_arg8 : FVec F S1000000 .f32) (main_arg9 : IVec S1000000 32) (main_arg10 : IVec S1000000 32) (main_arg11 : IVec S1000000 32) (main_arg12 : IVec S1000000 32) (main_arg13 : IVec S1000000 32) (main_arg14 : IVec S1000000 32) (main_arg15 : IVec S1000000 32) (main_arg16 : IVec S1000000 32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S200000x128 : Shape := ⟨2, ![200000, 128]⟩
abbrev S128x128 : Shape := ⟨2, ![128, 128]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S100000x128 : Shape := ⟨2, ![100000, 128]⟩
abbrev S1x100000x128 : Shape := ⟨3, ![1, 100000, 128]⟩
abbrev S2x100000x128 : Shape := ⟨3, ![2, 100000, 128]⟩
abbrev S1x128x128 : Shape := ⟨3, ![1, 128, 128]⟩
abbrev S2x128x128 : Shape := ⟨3, ![2, 128, 128]⟩
abbrev S1x5000x128 : Shape := ⟨3, ![1, 5000, 128]⟩
abbrev S5000x128 : Shape := ⟨2, ![5000, 128]⟩

abbrev nBuf : Space → Nat
  | .hbm => 99
  | .vmem => 12
  | .smem => 0
  | _ => 0

abbrev bufTy : (tb : Table) → Fin (tcTables nBuf tb) → BufTy
  | .hbm, ⟨0, _⟩ => ⟨S200000x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S1000000, .f32⟩
  | .hbm, ⟨6, _⟩ => ⟨S1000000, .f32⟩
  | .hbm, ⟨7, _⟩ => ⟨S1000000, .f32⟩
  | .hbm, ⟨8, _⟩ => ⟨S1000000, .f32⟩
  | .hbm, ⟨9, _⟩ => ⟨S1000000, .i32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S200000x128, .bf16⟩
  | .hbm, ⟨18, _⟩ => ⟨S_, .i32⟩
  | .hbm, ⟨19, _⟩ => ⟨S1000000, .i32⟩
  | .hbm, ⟨20, _⟩ => ⟨S1000000, .i1⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S1000000x128, .bf16⟩
  | .hbm, ⟨27, _⟩ => ⟨S1000000x128, .f32⟩
  | .hbm, ⟨28, _⟩ => ⟨S1000000x1, .f32⟩
  | .hbm, ⟨29, _⟩ => ⟨S1000000x128, .f32⟩
  | .hbm, ⟨30, _⟩ => ⟨S1000000x128, .f32⟩
  | .hbm, ⟨31, _⟩ => ⟨S_, .f32⟩
  | .hbm, ⟨32, _⟩ => ⟨S100000x128, .f32⟩
  | .hbm, ⟨33, _⟩ => ⟨S1000000x1, .i32⟩
  | .hbm, ⟨34, _⟩ => ⟨S100000x128, .f32⟩
  | .hbm, ⟨35, _⟩ => ⟨S_, .i32⟩
  | .hbm, ⟨36, _⟩ => ⟨S1000000, .i32⟩
  | .hbm, ⟨37, _⟩ => ⟨S1000000, .i1⟩
  | .hbm, ⟨38, _⟩ => ⟨S_, .i32⟩
  | .hbm, ⟨39, _⟩ => ⟨S1000000, .i32⟩
  | .hbm, ⟨40, _⟩ => ⟨S1000000, .i32⟩
  | .hbm, ⟨41, _⟩ => ⟨S1000000, .i32⟩
  | .hbm, ⟨42, _⟩ => ⟨S1000000x1, .i32⟩
  | .hbm, ⟨43, _⟩ => ⟨S1000000x128, .bf16⟩
  | .hbm, ⟨44, _⟩ => ⟨S1000000x128, .f32⟩
  | .hbm, ⟨45, _⟩ => ⟨S1000000x1, .f32⟩
  | .hbm, ⟨46, _⟩ => ⟨S1000000x128, .f32⟩
  | .hbm, ⟨47, _⟩ => ⟨S1000000x128, .f32⟩
  | .hbm, ⟨48, _⟩ => ⟨S_, .f32⟩
  | .hbm, ⟨49, _⟩ => ⟨S100000x128, .f32⟩
  | .hbm, ⟨50, _⟩ => ⟨S1000000x1, .i32⟩
  | .hbm, ⟨51, _⟩ => ⟨S100000x128, .f32⟩
  | .hbm, ⟨52, _⟩ => ⟨S_, .i32⟩
  | .hbm, ⟨53, _⟩ => ⟨S1000000, .i32⟩
  | .hbm, ⟨54, _⟩ => ⟨S1000000, .i1⟩
  | .hbm, ⟨55, _⟩ => ⟨S_, .i32⟩
  | .hbm, ⟨56, _⟩ => ⟨S1000000, .i32⟩
  | .hbm, ⟨57, _⟩ => ⟨S1000000, .i32⟩
  | .hbm, ⟨58, _⟩ => ⟨S1000000, .i32⟩
  | .hbm, ⟨59, _⟩ => ⟨S1000000x1, .i32⟩
  | .hbm, ⟨60, _⟩ => ⟨S1000000x128, .bf16⟩
  | .hbm, ⟨61, _⟩ => ⟨S1000000x128, .f32⟩
  | .hbm, ⟨62, _⟩ => ⟨S1000000x1, .f32⟩
  | .hbm, ⟨63, _⟩ => ⟨S1000000x128, .f32⟩
  | .hbm, ⟨64, _⟩ => ⟨S1000000x128, .f32⟩
  | .hbm, ⟨65, _⟩ => ⟨S_, .f32⟩
  | .hbm, ⟨66, _⟩ => ⟨S100000x128, .f32⟩
  | .hbm, ⟨67, _⟩ => ⟨S1000000x1, .i32⟩
  | .hbm, ⟨68, _⟩ => ⟨S100000x128, .f32⟩
  | .hbm, ⟨69, _⟩ => ⟨S_, .i32⟩
  | .hbm, ⟨70, _⟩ => ⟨S1000000, .i32⟩
  | .hbm, ⟨71, _⟩ => ⟨S1000000, .i1⟩
  | .hbm, ⟨72, _⟩ => ⟨S_, .i32⟩
  | .hbm, ⟨73, _⟩ => ⟨S1000000, .i32⟩
  | .hbm, ⟨74, _⟩ => ⟨S1000000, .i32⟩
  | .hbm, ⟨75, _⟩ => ⟨S1000000, .i32⟩
  | .hbm, ⟨76, _⟩ => ⟨S1000000x1, .i32⟩
  | .hbm, ⟨77, _⟩ => ⟨S1000000x128, .bf16⟩
  | .hbm, ⟨78, _⟩ => ⟨S1000000x128, .f32⟩
  | .hbm, ⟨79, _⟩ => ⟨S1000000x1, .f32⟩
  | .hbm, ⟨80, _⟩ => ⟨S1000000x128, .f32⟩
  | .hbm, ⟨81, _⟩ => ⟨S1000000x128, .f32⟩
  | .hbm, ⟨82, _⟩ => ⟨S_, .f32⟩
  | .hbm, ⟨83, _⟩ => ⟨S100000x128, .f32⟩
  | .hbm, ⟨84, _⟩ => ⟨S1000000x1, .i32⟩
  | .hbm, ⟨85, _⟩ => ⟨S100000x128, .f32⟩
  | .hbm, ⟨86, _⟩ => ⟨S1x100000x128, .f32⟩
  | .hbm, ⟨87, _⟩ => ⟨S1x100000x128, .f32⟩
  | .hbm, ⟨88, _⟩ => ⟨S2x100000x128, .f32⟩
  | .hbm, ⟨89, _⟩ => ⟨S1x100000x128, .f32⟩
  | .hbm, ⟨90, _⟩ => ⟨S1x100000x128, .f32⟩
  | .hbm, ⟨91, _⟩ => ⟨S2x100000x128, .f32⟩
  | .hbm, ⟨92, _⟩ => ⟨S1x128x128, .f32⟩
  | .hbm, ⟨93, _⟩ => ⟨S1x128x128, .f32⟩
  | .hbm, ⟨94, _⟩ => ⟨S2x128x128, .f32⟩
  | .hbm, ⟨95, _⟩ => ⟨S1x128x128, .f32⟩
  | .hbm, ⟨96, _⟩ => ⟨S1x128x128, .f32⟩
  | .hbm, ⟨97, _⟩ => ⟨S2x128x128, .f32⟩
  | .hbm, ⟨98, _⟩ => ⟨S200000x128, .f32⟩
  | .local _ .vmem, ⟨0, _⟩ => ⟨S1x5000x128, .f32⟩
  | .local _ .vmem, ⟨1, _⟩ => ⟨S1x5000x128, .f32⟩
  | .local _ .vmem, ⟨2, _⟩ => ⟨S1x5000x128, .f32⟩
  | .local _ .vmem, ⟨3, _⟩ => ⟨S1x5000x128, .f32⟩
  | .local _ .vmem, ⟨4, _⟩ => ⟨S5000x128, .f32⟩
  | .local _ .vmem, ⟨5, _⟩ => ⟨S5000x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S5000x128, .f32⟩
  | .local _ .vmem, ⟨11, _⟩ => ⟨S5000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c_1 : Ref sig .tc := ⟨.hbm, 35, rfl⟩
abbrev main_v15 : Ref sig .tc := ⟨.hbm, 36, rfl⟩
abbrev main_v16 : Ref sig .tc := ⟨.hbm, 37, rfl⟩
abbrev main_c_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_3 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_4 : Ref sig .tc := ⟨.hbm, 52, rfl⟩
abbrev main_v29 : Ref sig .tc := ⟨.hbm, 53, rfl⟩
abbrev main_v30 : Ref sig .tc := ⟨.hbm, 54, rfl⟩
abbrev main_c_5 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_6 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_7 : Ref sig .tc := ⟨.hbm, 69, rfl⟩
abbrev main_v43 : Ref sig .tc := ⟨.hbm, 70, rfl⟩
abbrev main_v44 : Ref sig .tc := ⟨.hbm, 71, rfl⟩
abbrev main_c_8 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_9 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 20], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bitsLt_bf16_f32 : FTy.bits .bf16 < FTy.bits .f32
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x128_0_1 : S1000000x1.BroadcastsInDim S1000000x128 (![0, 1] : Fin 2 → Fin S1000000x128.rank)
  bcast_S_S100000x128 : S_.BroadcastsInDim S100000x128 (![] : Fin 0 → Fin S100000x128.rank)
  bcast_S100000x128_S1x100000x128_1_2 : S100000x128.BroadcastsInDim S1x100000x128 (![1, 2] : Fin 2 → Fin S1x100000x128.rank)
  concatenates_S1x100000x128_S1x100000x128_S2x100000x128_d0 : Shape.Concatenates [S1x100000x128, S1x100000x128] S2x100000x128 0
  bcast_S128x128_S1x128x128_1_2 : S128x128.BroadcastsInDim S1x128x128 (![1, 2] : Fin 2 → Fin S1x128x128.rank)
  concatenates_S1x128x128_S1x128x128_S2x128x128_d0 : Shape.Concatenates [S1x128x128, S1x128x128] S2x128x128 0
  inb_S1x5000x128_S1x5000x128_0_0_0 : ∀ a, (![0, 0, 0] : Fin 3 → Nat) a + S1x5000x128.size a ≤ S1x5000x128.size a
  h_S1x5000x128 : 0 < S1x5000x128.numel
  shapeCasts_S1x5000x128_S5000x128 : S1x5000x128.ShapeCasts S5000x128
  inb_S5000x128_S5000x128_0_0 : ∀ a, (![0, 0] : Fin 2 → Nat) a + S5000x128.size a ≤ S5000x128.size a
  h_S5000x128 : 0 < S5000x128.numel
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  gather_S200000x128_S1000000x1_S1000000x128_1_0_n_n_0_1_1128_wf : GatherDims.WF S200000x128 S1000000x1 S1000000x128 [1] [0] [] [0] [] 1 ![1, 128]
  scatter_S100000x128_S1000000x1_S1000000x128_1_0_0_1_wf : ScatterDims.WF S100000x128 S1000000x1 S1000000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5000x128.size a ≤ S2x100000x128.size a
  hwx0_0 : ∀ i : grid0.Coords, EltTy.bits .f32 = 32 ∨ (Rect.block (s := S2x100000x128) S1x5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x5000x128.size a ≤ S2x100000x128.size a
  hwx0_1 : ∀ i : grid0.Coords, EltTy.bits .f32 = 32 ∨ (Rect.block (s := S2x100000x128) S1x5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S200000x128.size a
  hwx0_2 : ∀ i : grid0.Coords, EltTy.bits .f32 = 32 ∨ (Rect.block (s := S200000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x128.size a ≤ S2x128x128.size a
  hwx0_3 : ∀ i : grid0.Coords, EltTy.bits .f32 = 32 ∨ (Rect.block (s := S2x128x128) S1x128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x128.size a ≤ S2x128x128.size a
  hwx0_4 : ∀ i : grid0.Coords, EltTy.bits .f32 = 32 ∨ (Rect.block (s := S2x128x128) S1x128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S200000x128.size a
  hwx0_5 : ∀ i : grid0.Coords, EltTy.bits .f32 = 32 ∨ (Rect.block (s := S200000x128) S5000x128.size (cc0_transform_5 i) (hinb0_5 i)).WholeWords (EltTy.packing .f32)

variable [Facts₀]

def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v59) S1x5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v62) S1x5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v65) S1x128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v68) S1x128x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v69) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S200000x128 : Shape := ⟨2, ![200000, 128]⟩
abbrev S128x128 : Shape := ⟨2, ![128, 128]⟩
abbrev S1000000 : Shape := ⟨1, ![1000000]⟩
abbrev S1000000x1 : Shape := ⟨2, ![1000000, 1]⟩
abbrev S_ : Shape := ⟨0, ![]⟩
abbrev S1000000x128 : Shape := ⟨2, ![1000000, 128]⟩
abbrev S100000x128 : Shape := ⟨2, ![100000, 128]⟩

abbrev nBuf : Space → Nat
  | .hbm => 112
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S1000000, .f32⟩
  | .hbm, ⟨6, _⟩ => ⟨S1000000, .f32⟩
  | .hbm, ⟨7, _⟩ => ⟨S1000000, .f32⟩
  | .hbm, ⟨8, _⟩ => ⟨S1000000, .f32⟩
  | .hbm, ⟨9, _⟩ => ⟨S1000000, .i32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .f32⟩
  | .hbm, ⟨18, _⟩ => ⟨S_, .i32⟩
  | .hbm, ⟨19, _⟩ => ⟨S1000000, .i32⟩
  | .hbm, ⟨20, _⟩ => ⟨S1000000, .i1⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S1000000x128, .f32⟩
  | .hbm, ⟨27, _⟩ => ⟨S1000000x128, .f32⟩
  | .hbm, ⟨28, _⟩ => ⟨S1000000x128, .f32⟩
  | .hbm, ⟨29, _⟩ => ⟨S_, .f32⟩
  | .hbm, ⟨30, _⟩ => ⟨S100000x128, .f32⟩
  | .hbm, ⟨31, _⟩ => ⟨S1000000x1, .i32⟩
  | .hbm, ⟨32, _⟩ => ⟨S100000x128, .f32⟩
  | .hbm, ⟨33, _⟩ => ⟨S1000000x1, .f32⟩
  | .hbm, ⟨34, _⟩ => ⟨S_, .i32⟩
  | .hbm, ⟨35, _⟩ => ⟨S1000000, .i32⟩
  | .hbm, ⟨36, _⟩ => ⟨S1000000, .i1⟩
  | .hbm, ⟨37, _⟩ => ⟨S_, .i32⟩
  | .hbm, ⟨38, _⟩ => ⟨S1000000, .i32⟩
  | .hbm, ⟨39, _⟩ => ⟨S1000000, .i32⟩
  | .hbm, ⟨40, _⟩ => ⟨S1000000, .i32⟩
  | .hbm, ⟨41, _⟩ => ⟨S1000000x1, .i32⟩
  | .hbm, ⟨42, _⟩ => ⟨S1000000x128, .f32⟩
  | .hbm, ⟨43, _⟩ => ⟨S1000000x128, .f32⟩
  | .hbm, ⟨44, _⟩ => ⟨S1000000x128, .f32⟩
  | .hbm, ⟨45, _⟩ => ⟨S_, .f32⟩
  | .hbm, ⟨46, _⟩ => ⟨S100000x128, .f32⟩
  | .hbm, ⟨47, _⟩ => ⟨S1000000x1, .i32⟩
  | .hbm, ⟨48, _⟩ => ⟨S100000x128, .f32⟩
  | .hbm, ⟨49, _⟩ => ⟨S_, .i32⟩
  | .hbm, ⟨50, _⟩ => ⟨S_, .i32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S_, .f32⟩
  | .hbm, ⟨58, _⟩ => ⟨S100000x128, .f32⟩
  | .hbm, ⟨59, _⟩ => ⟨S100000x128, .i1⟩
  | .hbm, ⟨60, _⟩ => ⟨S_, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S1000000x1, .f32⟩
  | .hbm, ⟨65, _⟩ => ⟨S_, .i32⟩
  | .hbm, ⟨66, _⟩ => ⟨S1000000, .i32⟩
  | .hbm, ⟨67, _⟩ => ⟨S1000000, .i1⟩
  | .hbm, ⟨68, _⟩ => ⟨S_, .i32⟩
  | .hbm, ⟨69, _⟩ => ⟨S1000000, .i32⟩
  | .hbm, ⟨70, _⟩ => ⟨S1000000, .i32⟩
  | .hbm, ⟨71, _⟩ => ⟨S1000000, .i32⟩
  | .hbm, ⟨72, _⟩ => ⟨S1000000x1, .i32⟩
  | .hbm, ⟨73, _⟩ => ⟨S1000000x128, .f32⟩
  | .hbm, ⟨74, _⟩ => ⟨S1000000x128, .f32⟩
  | .hbm, ⟨75, _⟩ => ⟨S1000000x128, .f32⟩
  | .hbm, ⟨76, _⟩ => ⟨S_, .f32⟩
  | .hbm, ⟨77, _⟩ => ⟨S100000x128, .f32⟩
  | .hbm, ⟨78, _⟩ => ⟨S1000000x1, .i32⟩
  | .hbm, ⟨79, _⟩ => ⟨S100000x128, .f32⟩
  | .hbm, ⟨80, _⟩ => ⟨S1000000x1, .f32⟩
  | .hbm, ⟨81, _⟩ => ⟨S_, .i32⟩
  | .hbm, ⟨82, _⟩ => ⟨S1000000, .i32⟩
  | .hbm, ⟨83, _⟩ => ⟨S1000000, .i1⟩
  | .hbm, ⟨84, _⟩ => ⟨S_, .i32⟩
  | .hbm, ⟨85, _⟩ => ⟨S1000000, .i32⟩
  | .hbm, ⟨86, _⟩ => ⟨S1000000, .i32⟩
  | .hbm, ⟨87, _⟩ => ⟨S1000000, .i32⟩
  | .hbm, ⟨88, _⟩ => ⟨S1000000x1, .i32⟩
  | .hbm, ⟨89, _⟩ => ⟨S1000000x128, .f32⟩
  | .hbm, ⟨90, _⟩ => ⟨S1000000x128, .f32⟩
  | .hbm, ⟨91, _⟩ => ⟨S1000000x128, .f32⟩
  | .hbm, ⟨92, _⟩ => ⟨S_, .f32⟩
  | .hbm, ⟨93, _⟩ => ⟨S100000x128, .f32⟩
  | .hbm, ⟨94, _⟩ => ⟨S1000000x1, .i32⟩
  | .hbm, ⟨95, _⟩ => ⟨S100000x128, .f32⟩
  | .hbm, ⟨96, _⟩ => ⟨S_, .i32⟩
  | .hbm, ⟨97, _⟩ => ⟨S_, .i32⟩
  | .hbm, ⟨98, _⟩ => ⟨S100000x128, .f32⟩
  | .hbm, ⟨99, _⟩ => ⟨S100000x128, .f32⟩
  | .hbm, ⟨100, _⟩ => ⟨S100000x128, .f32⟩
  | .hbm, ⟨101, _⟩ => ⟨S100000x128, .f32⟩
  | .hbm, ⟨102, _⟩ => ⟨S100000x128, .f32⟩
  | .hbm, ⟨103, _⟩ => ⟨S_, .f32⟩
  | .hbm, ⟨104, _⟩ => ⟨S_, .f32⟩
  | .hbm, ⟨105, _⟩ => ⟨S100000x128, .f32⟩
  | .hbm, ⟨106, _⟩ => ⟨S100000x128, .i1⟩
  | .hbm, ⟨107, _⟩ => ⟨S_, .f32⟩
  | .hbm, ⟨108, _⟩ => ⟨S100000x128, .f32⟩
  | .hbm, ⟨109, _⟩ => ⟨S100000x128, .f32⟩
  | .hbm, ⟨110, _⟩ => ⟨S100000x128, .f32⟩
  | .hbm, ⟨111, _⟩ => ⟨S200000x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_1 : Ref sig .tc := ⟨.hbm, 34, rfl⟩
abbrev main_v14 : Ref sig .tc := ⟨.hbm, 35, rfl⟩
abbrev main_v15 : Ref sig .tc := ⟨.hbm, 36, rfl⟩
abbrev main_c_2 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_3 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_4 : Ref sig .tc := ⟨.hbm, 49, rfl⟩
abbrev main_c_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_6 : Ref sig .tc := ⟨.hbm, 56, rfl⟩
abbrev main_call0_cst : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_v31 : Ref sig .tc := ⟨.hbm, 63, rfl⟩
abbrev main_v32 : Ref sig .tc := ⟨.hbm, 64, rfl⟩
abbrev main_c_7 : Ref sig .tc := ⟨.hbm, 65, rfl⟩
abbrev main_v33 : Ref sig .tc := ⟨.hbm, 66, rfl⟩
abbrev main_v34 : Ref sig .tc := ⟨.hbm, 67, rfl⟩
abbrev main_c_8 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_9 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_c_10 : Ref sig .tc := ⟨.hbm, 81, rfl⟩
abbrev main_v46 : Ref sig .tc := ⟨.hbm, 82, rfl⟩
abbrev main_v47 : Ref sig .tc := ⟨.hbm, 83, rfl⟩
abbrev main_c_11 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_12 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_c_13 : Ref sig .tc := ⟨.hbm, 96, rfl⟩
abbrev main_c_14 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_15 : Ref sig .tc := ⟨.hbm, 103, rfl⟩
abbrev main_call1_cst : Ref sig .tc := ⟨.hbm, 104, rfl⟩
abbrev main_call1_v0 : Ref sig .tc := ⟨.hbm, 105, rfl⟩
abbrev main_call1_v1 : Ref sig .tc := ⟨.hbm, 106, rfl⟩
abbrev main_call1_v2 : Ref sig .tc := ⟨.hbm, 107, rfl⟩
abbrev main_call1_v3 : Ref sig .tc := ⟨.hbm, 108, rfl⟩
abbrev main_call1_v4 : Ref sig .tc := ⟨.hbm, 109, rfl⟩
abbrev main_v63 : Ref sig .tc := ⟨.hbm, 110, rfl⟩
abbrev main_v64 : Ref sig .tc := ⟨.hbm, 111, rfl⟩

abbrev nD : Nat := 1
abbrev τ : Topo := Topo.v7x

variable {F : FTy → Type} [FloatOps F]

class Facts₀ : Prop where
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x128_0_1 : S1000000x1.BroadcastsInDim S1000000x128 (![0, 1] : Fin 2 → Fin S1000000x128.rank)
  bcast_S_S100000x128 : S_.BroadcastsInDim S100000x128 (![] : Fin 0 → Fin S100000x128.rank)
  sliceFits_S200000x128_S100000x128 : S200000x128.Slices (fun _ => 0) S100000x128
  h_S_ : 0 < S_.numel
  concatenates_S100000x128_S100000x128_S200000x128_d0 : Shape.Concatenates [S100000x128, S100000x128] S200000x128 0
  gather_S200000x128_S1000000x1_S1000000x128_1_0_n_n_0_1_1128_wf : GatherDims.WF S200000x128 S1000000x1 S1000000x128 [1] [0] [] [0] [] 1 ![1, 128]
  scatter_S100000x128_S1000000x1_S1000000x128_1_0_0_1_wf : ScatterDims.WF S100000x128 S1000000x1 S1000000x128 [1] [0] [0] 1
  dot_S100000x128_S128x128_S100000x128_1_0_0_1_n_n_wf : DotDims.WF S100000x128 S128x128 S100000x128 [1] [0] [0] [1] [] []

variable [Facts₀]

def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The mathematics of the gated graph layer, as functions of arrays of extended reals, with no program in sight.

  One layer treats two families of rows (users, then items), 100000 rows each, of one table `ebs` of 200000 rows of width
  128.  For a family with sparse aggregates `LI`, `L` (100000 × 128 each) and weights `Ws`, `Wd` (128 × 128 each), row `r` of
  the family — row `R` of the table — and column `j`, the layer's entry is

      gate ( Σ_k LI[r,k] · Ws[k,j]  +  Σ_k (L[r,k] · ebs[R,k]) · Wd[k,j] ),        gate x = x if x > 0, else 0.2 · x.

  The result stacks the two families' rows: rows 0 … 99999 are the users', rows 100000 … 199999 the items'.
  `G` states this over the eight member arrays, `Gs` over the same data stacked in pairs along a new leading axis (which
  is how a blocked computation over both families at once finds them), and `Gs_stack` says the two agree.  `gate_oge` is
  the one law of the extended reals the comparison of two programs needs: testing `x ≥ 0` instead of `x > 0` changes
  nothing, because at `x = 0` both branches are `0`.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.StackMember

noncomputable section

namespace Cert.GateSpec

open Idealize.ShloMosaic Idealize.ShloMosaic.ValueIdx

/-- The word of `0.0` and the word of the slope `0.2` (kept as words: the same word on both sides is never evaluated). -/
abbrev zeroW : EReal := Ideal.ofBits .f32 0x00000000#32
abbrev slopeW : EReal := Ideal.ofBits .f32 0x3E4CCCCD#32

/-- The gate on one extended real, in its strict form: `x` where `x > 0`, the slope times `x` elsewhere. -/
def gate (x : EReal) : EReal := Scalar.select (Ideal.cmp .ogt x zeroW) x (slopeW * x)

/-- The non-strict test gives the same gate: the two tests differ only at `x = 0`, where `slope · 0 = 0 = x`. -/
theorem gate_oge (x : EReal) : Scalar.select (Ideal.cmp .oge x zeroW) x (slopeW * x) = gate x := by
  have hz : zeroW = 0 := Ideal.ofBits_zero_f32
  unfold gate Ideal.cmp Scalar.select
  rw [hz]
  rcases lt_trichotomy (0 : EReal) x with h | h | h
  · have h1 : decide ((0 : EReal) < x) = true := decide_eq_true h
    have h2 : decide ((0 : EReal) ≤ x) = true := decide_eq_true h.le
    simp only [h1, h2]
  · subst h
    simp
  · have h1 : decide ((0 : EReal) < x) = false := decide_eq_false (not_lt.2 h.le)
    have h2 : decide ((0 : EReal) ≤ x) = false := decide_eq_false (not_le.2 h)
    simp only [h1, h2]

/-- One entry of one family's rows: family row `r`, table row `R`, column `j`. -/
def entry (ebs : FVec Ideal ⟨2, ![200000, 128]⟩ .f32) (LI L : FVec Ideal ⟨2, ![100000, 128]⟩ .f32)
    (Ws Wd : FVec Ideal ⟨2, ![128, 128]⟩ .f32) (r : Fin 100000) (R : Fin 200000) (j : Fin 128) : EReal :=
  gate ((∑ k : Fin 128, LI (ix2 r k) * Ws (ix2 k j)) + ∑ k : Fin 128, (L (ix2 r k) * ebs (ix2 R k)) * Wd (ix2 k j))

/-- The layer over the member arrays: the users' rows, then the items'. -/
def G (ebs : FVec Ideal ⟨2, ![200000, 128]⟩ .f32) (LIu LIi Lu Li : FVec Ideal ⟨2, ![100000, 128]⟩ .f32)
    (Wsu Wsi Wdu Wdi : FVec Ideal ⟨2, ![128, 128]⟩ .f32) : FVec Ideal ⟨2, ![200000, 128]⟩ .f32 := fun i =>
  if h : (i 0).val < 100000 then entry ebs LIu Lu Wsu Wdu ⟨(i 0).val, h⟩ ⟨(i 0).val, idx2_lt0 i⟩ ⟨(i 1).val, idx2_lt1 i⟩
  else entry ebs LIi Li Wsi Wdi ⟨(i 0).val - 100000, by have := idx2_lt0 i; omega⟩ ⟨(i 0).val, idx2_lt0 i⟩ ⟨(i 1).val, idx2_lt1 i⟩

/-- The layer over the data stacked in pairs: table row `R` belongs to family `R / 100000` and is its row `R % 100000`. -/
def Gs (ebs : FVec Ideal ⟨2, ![200000, 128]⟩ .f32) (LIs Ls : FVec Ideal ⟨3, ![2, 100000, 128]⟩ .f32)
    (Wss Wds : FVec Ideal ⟨3, ![2, 128, 128]⟩ .f32) : FVec Ideal ⟨2, ![200000, 128]⟩ .f32 := fun i =>
  gate ((∑ k : Fin 128, LIs (ix3 (⟨(i 0).val / 100000, by have := idx2_lt0 i; omega⟩ : Fin 2) (⟨(i 0).val % 100000, Nat.mod_lt _ (by norm_num)⟩ : Fin 100000) k)
            * Wss (ix3 (⟨(i 0).val / 100000, by have := idx2_lt0 i; omega⟩ : Fin 2) k (⟨(i 1).val, idx2_lt1 i⟩ : Fin 128)))
    + ∑ k : Fin 128, (Ls (ix3 (⟨(i 0).val / 100000, by have := idx2_lt0 i; omega⟩ : Fin 2) (⟨(i 0).val % 100000, Nat.mod_lt _ (by norm_num)⟩ : Fin 100000) k)
            * ebs (ix2 (⟨(i 0).val, idx2_lt0 i⟩ : Fin 200000) k))
          * Wds (ix3 (⟨(i 0).val / 100000, by have := idx2_lt0 i; omega⟩ : Fin 2) k (⟨(i 1).val, idx2_lt1 i⟩ : Fin 128)))

/-- `Gs` at an index whose family, family row, table row and column are known. -/
theorem Gs_at (ebs : FVec Ideal ⟨2, ![200000, 128]⟩ .f32) (LIs Ls : FVec Ideal ⟨3, ![2, 100000, 128]⟩ .f32)
    (Wss Wds : FVec Ideal ⟨3, ![2, 128, 128]⟩ .f32) (i : (⟨2, ![200000, 128]⟩ : Shape).Idx)
    (f : Fin 2) (r : Fin 100000) (R : Fin 200000) (j : Fin 128)
    (hf : f.val = (i 0).val / 100000) (hr : r.val = (i 0).val % 100000) (hR : R.val = (i 0).val) (hj : j.val = (i 1).val) :
    Gs ebs LIs Ls Wss Wds i
      = gate ((∑ k : Fin 128, LIs (ix3 f r k) * Wss (ix3 f k j)) + ∑ k : Fin 128, (Ls (ix3 f r k) * ebs (ix2 R k)) * Wds (ix3 f k j)) := by
  have ef : (⟨(i 0).val / 100000, by have := idx2_lt0 i; omega⟩ : Fin 2) = f := Fin.ext hf.symm
  have er : (⟨(i 0).val % 100000, Nat.mod_lt _ (by norm_num)⟩ : Fin 100000) = r := Fin.ext hr.symm
  have eR : (⟨(i 0).val, idx2_lt0 i⟩ : Fin 200000) = R := Fin.ext hR.symm
  have ej : (⟨(i 1).val, idx2_lt1 i⟩ : Fin 128) = j := Fin.ext hj.symm
  unfold Gs
  simp only [ef, er, eR, ej]

/-- Over stacks whose members are the given arrays, the stacked layer is the layer over the members. -/
theorem Gs_of_members (ebs : FVec Ideal ⟨2, ![200000, 128]⟩ .f32) (LIs Ls : FVec Ideal ⟨3, ![2, 100000, 128]⟩ .f32)
    (Wss Wds : FVec Ideal ⟨3, ![2, 128, 128]⟩ .f32) (LIu LIi Lu Li : FVec Ideal ⟨2, ![100000, 128]⟩ .f32)
    (Wsu Wsi Wdu Wdi : FVec Ideal ⟨2, ![128, 128]⟩ .f32)
    (hLI : ∀ (f : Fin 2) (r : Fin 100000) (k : Fin 128), LIs (ix3 f r k) = if f.val = 0 then LIu (ix2 r k) else LIi (ix2 r k))
    (hL : ∀ (f : Fin 2) (r : Fin 100000) (k : Fin 128), Ls (ix3 f r k) = if f.val = 0 then Lu (ix2 r k) else Li (ix2 r k))
    (hWs : ∀ (f : Fin 2) (k j : Fin 128), Wss (ix3 f k j) = if f.val = 0 then Wsu (ix2 k j) else Wsi (ix2 k j))
    (hWd : ∀ (f : Fin 2) (k j : Fin 128), Wds (ix3 f k j) = if f.val = 0 then Wdu (ix2 k j) else Wdi (ix2 k j)) :
    Gs ebs LIs Ls Wss Wds = G ebs LIu LIi Lu Li Wsu Wsi Wdu Wdi := by
  funext i
  have h0 := idx2_lt0 i
  unfold G
  by_cases h : (i 0).val < 100000
  · rw [dif_pos h]
    have e0 : (⟨0, by norm_num⟩ : Fin 2).val = 0 := rfl
    rw [Gs_at ebs LIs Ls Wss Wds i ⟨0, by norm_num⟩ ⟨(i 0).val, h⟩ ⟨(i 0).val, h0⟩ ⟨(i 1).val, idx2_lt1 i⟩
      (by show 0 = (i 0).val / 100000; omega) (by show (i 0).val = (i 0).val % 100000; omega) rfl rfl]
    unfold entry
    simp only [hLI, hL, hWs, hWd, e0, ↓reduceIte]
  · rw [dif_neg h]
    have e1 : ¬ (⟨1, by norm_num⟩ : Fin 2).val = 0 := Nat.one_ne_zero
    rw [Gs_at ebs LIs Ls Wss Wds i ⟨1, by norm_num⟩ ⟨(i 0).val - 100000, by omega⟩ ⟨(i 0).val, h0⟩ ⟨(i 1).val, idx2_lt1 i⟩
      (by show 1 = (i 0).val / 100000; omega) (by show (i 0).val - 100000 = (i 0).val % 100000; omega) rfl rfl]
    unfold entry
    simp only [hLI, hL, hWs, hWd, e1, ↓reduceIte]

/-- Two arrays of one shape stacked along a new leading axis (each given the unit axis, then joined along it), read
    at member `f`: the first array for `f = 0`, the second for `f = 1`. -/
theorem stack_apply {N M : Nat} {α : Type} (a b : (⟨2, ![N, M]⟩ : Shape).Idx → α)
    (hb : (⟨2, ![N, M]⟩ : Shape).BroadcastsInDim ⟨3, ![1, N, M]⟩ ![1, 2])
    (hc : Shape.Concatenates [(⟨3, ![1, N, M]⟩ : Shape), ⟨3, ![1, N, M]⟩] ⟨3, ![2, N, M]⟩ 0)
    (f : Fin 2) (r : Fin N) (k : Fin M) :
    concatenate ⟨3, ![2, N, M]⟩ 0 [⟨⟨3, ![1, N, M]⟩, broadcastInDim ⟨3, ![1, N, M]⟩ ![1, 2] hb a⟩,
      ⟨⟨3, ![1, N, M]⟩, broadcastInDim ⟨3, ![1, N, M]⟩ ![1, 2] hb b⟩] hc (ix3 f r k)
      = if f.val = 0 then a (ix2 r k) else b (ix2 r k) := by
  have hr : r.val < N := r.isLt
  have hk : k.val < M := k.isLt
  have rd : ∀ (x : (⟨2, ![N, M]⟩ : Shape).Idx → α), broadcastInDim ⟨3, ![1, N, M]⟩ ![1, 2] hb x (ix3 (0 : Fin 1) r k) = x (ix2 r k) := by
    intro x
    refine broadcastInDim_apply ![1, 2] hb x (ix3 (0 : Fin 1) r k) (ix2 r k) ?_
    intro ax
    match ax with
    | ⟨0, _⟩ =>
      show r.val = if N = 1 then 0 else r.val
      split <;> omega
    | ⟨1, _⟩ =>
      show k.val = if M = 1 then 0 else k.val
      split <;> omega
  by_cases h0 : f.val = 0
  · rw [if_pos h0]
    refine (concatenate_pair_apply_left (t := ⟨3, ![2, N, M]⟩) (s₁ := ⟨3, ![1, N, M]⟩) (s₂ := ⟨3, ![1, N, M]⟩) (0 : Fin 3) _ _ hc (ix3 f r k) rfl (ix3 (0 : Fin 1) r k) ?_).trans (rd a)
    intro ax
    match ax with
    | ⟨0, _⟩ => show (0 : Nat) = f.val; omega
    | ⟨1, _⟩ => rfl
    | ⟨2, _⟩ => rfl
  · rw [if_neg h0]
    have hf : f.val = 1 := by have := f.isLt; omega
    refine (concatenate_pair_apply_right (t := ⟨3, ![2, N, M]⟩) (s₁ := ⟨3, ![1, N, M]⟩) (s₂ := ⟨3, ![1, N, M]⟩) (0 : Fin 3) _ _ hc (ix3 f r k) rfl rfl (ix3 (0 : Fin 1) r k) ?_ ?_).trans (rd b)
    · intro ax hne
      match ax with
      | ⟨0, _⟩ => exact absurd rfl hne
      | ⟨1, _⟩ => rfl
      | ⟨2, _⟩ => rfl
    · show (0 : Nat) + 1 = f.val
      omega

end Cert.GateSpec

end
-- ==== Proof.KernelValue.lean ====
/-
  What the blocked kernel leaves in its result array, at the extended reals.

  The kernel walks a grid of 2 × 20 points.  At point (f, b) it reads rows b·5000 … b·5000 + 4999 of member f of the two
  stacked aggregates, rows (f·20 + b)·5000 … of the table, member f of the two stacked weight matrices, and writes rows
  (f·20 + b)·5000 … of the result.  Its arithmetic on a block is two products accumulated from zero, their sum, and the
  gate; a change of float format is the identity here.  So each written entry is `Gs` of the arrays the region finds, at
  that entry's own index (`block_eq`); the forty blocks tile the 200000 rows (`cover`).
-/
import proofs.«101847_j11192684773414_2_alg».proof.Proof.Gen.KernelIdeal.Value
import proofs.«101847_j11192684773414_2_alg».proof.Proof.Spec
import Idealize.ShloMosaic.Lib.ValueLayout
import Idealize.ShloMosaic.Lib.KernelVsHost
import Idealize.ShloMosaic.Lib.StackMember

noncomputable section

namespace Cert.KernelIdeal.GateValue

open Cert.KernelIdeal Cert.KernelIdeal.Gen Idealize.ShloMosaic Idealize.ShloMosaic.TcCoe Idealize.SL.Sem
open Idealize.ShloMosaic.ValueIdx Cert.GateSpec
open Idealize.ShloMosaic.Pipeline (Dat)

/-- The kernel's product contracts the left operand's columns with the right operand's rows: the plain product. -/
theorem dot_plain : dot_S5000x128_S128x128_S5000x128_1_0_0_1_n_n = DotDims.plain 5000 128 128 := rfl

/-- A product accumulated from zero, read at an entry, is the sum over the contracted coordinate. -/
theorem mm_apply (A : FVec Ideal S5000x128 .bf16) (B : FVec Ideal S128x128 .bf16) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) := by
  rw [matmul_zero_eq_dotGeneral, dot_plain]
  exact StackMember.dotGeneral_plain_apply none A B p q

/-- The body's arithmetic at entry (p, q) of a block: the gate of the two sums, over the loaded blocks. -/
theorem pay_apply (x0 x1 : Vec Ideal S1x5000x128 .f32) (x2 : Vec Ideal S5000x128 .f32) (x3 x4 : Vec Ideal S1x128x128 .f32)
    (p : Fin 5000) (q : Fin 128) :
    k0_pay1 (F := Ideal) x0 x1 x2 x3 x4 (ix2 p q)
      = gate ((∑ k : Fin 128, x0 (ix3 (0 : Fin 1) p k) * x3 (ix3 (0 : Fin 1) k q))
          + ∑ k : Fin 128, (x1 (ix3 (0 : Fin 1) p k) * x2 (ix2 p k)) * x4 (ix3 (0 : Fin 1) k q)) := by
  unfold k0_pay1
  show gate (matmul dot_S5000x128_S128x128_S5000x128_1_0_0_1_n_n none
        (truncf .bf16 (shapeCast S5000x128 x0 shapeCasts_S1x5000x128_S5000x128) bitsLt_bf16_f32)
        (truncf .bf16 (shapeCast S128x128 x3 shapeCasts_S1x128x128_S128x128) bitsLt_bf16_f32)
        (constant (F := Ideal) S5000x128 .f32 0x00000000#32) (ix2 p q)
      + matmul dot_S5000x128_S128x128_S5000x128_1_0_0_1_n_n none
        (truncf .bf16 (mulf (shapeCast S5000x128 x1 shapeCasts_S1x5000x128_S5000x128) x2) bitsLt_bf16_f32)
        (truncf .bf16 (shapeCast S128x128 x4 shapeCasts_S1x128x128_S128x128) bitsLt_bf16_f32)
        (constant (F := Ideal) S5000x128 .f32 0x00000000#32) (ix2 p q)) = _
  refine congrArg gate ?_
  refine congrArg₂ (· + ·) ((mm_apply _ _ p q).trans ?_) ((mm_apply _ _ p q).trans ?_)
  · refine Finset.sum_congr rfl fun k _ => ?_
    show shapeCast S5000x128 x0 shapeCasts_S1x5000x128_S5000x128 (ix2 p k) * shapeCast S128x128 x3 shapeCasts_S1x128x128_S128x128 (ix2 k q) = _
    rw [shapeCast_1ab_ab_apply, shapeCast_1ab_ab_apply]
  · refine Finset.sum_congr rfl fun k _ => ?_
    show (shapeCast S5000x128 x1 shapeCasts_S1x5000x128_S5000x128 (ix2 p k) * x2 (ix2 p k)) * shapeCast S128x128 x4 shapeCasts_S1x128x128_S128x128 (ix2 k q) = _
    rw [shapeCast_1ab_ab_apply, shapeCast_1ab_ab_apply]

/-- The printed index maps, decided once over the forty grid points: windows 0 and 1 (the stacked aggregates) sit at
    member f, row block b; windows 3 and 4 (the stacked weights) at member f; window 2 (the table) and window 5 (the
    result) at row block f·20 + b. -/
theorem idx_facts : ∀ t : Fin cfg0.N,
    win0_0.index t (0 : Fin 3) < 2 ∧ win0_0.index t (1 : Fin 3) < 20 ∧ win0_0.index t (2 : Fin 3) = 0
    ∧ win0_1.index t (0 : Fin 3) = win0_0.index t (0 : Fin 3) ∧ win0_1.index t (1 : Fin 3) = win0_0.index t (1 : Fin 3) ∧ win0_1.index t (2 : Fin 3) = 0
    ∧ win0_2.index t (0 : Fin 2) = win0_0.index t (0 : Fin 3) * 20 + win0_0.index t (1 : Fin 3) ∧ win0_2.index t (1 : Fin 2) = 0
    ∧ win0_3.index t (0 : Fin 3) = win0_0.index t (0 : Fin 3) ∧ win0_3.index t (1 : Fin 3) = 0 ∧ win0_3.index t (2 : Fin 3) = 0
    ∧ win0_4.index t (0 : Fin 3) = win0_0.index t (0 : Fin 3) ∧ win0_4.index t (1 : Fin 3) = 0 ∧ win0_4.index t (2 : Fin 3) = 0
    ∧ win0_5.index t (0 : Fin 2) = win0_0.index t (0 : Fin 3) * 20 + win0_0.index t (1 : Fin 3) ∧ win0_5.index t (1 : Fin 2) = 0 :=
  (by decide +kernel : ∀ t : Fin grid0.N, _)

/-- Every one of the forty row blocks of the result is some grid point's. -/
theorem idx_onto : ∀ q0 : Fin 40, ∃ t : Fin cfg0.N, win0_5.index t = ![q0.val, 0] :=
  (by decide +kernel : ∀ q0 : Fin 40, ∃ t : Fin grid0.N, win0_5.index t = ![q0.val, 0])

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The five input blocks of a point, read where the arrays hold them

A block's coordinate on an axis is the block index times the block's extent plus the coordinate inside the block. -/

/-- Entry (p, k) of the first aggregate's block: member f, row b·5000 + p of the stack. -/
theorem blk0 (c : Dev nD) (t : Fin cfg0.N) (p : Fin 5000) (k : Fin 128) (f : Fin 2) (r : Fin 100000)
    (hf : f.val = win0_0.index t (0 : Fin 3)) (hr : r.val = win0_0.index t (1 : Fin 3) * 5000 + p.val) :
    iblk m c 0 t (ix3 (0 : Fin 1) p k) = (V m c main_v59 : S2x100000x128.Idx → EReal) (ix3 f r k) := by
  obtain ⟨f2, b20, e02, e10, e11, e12, e20, e21, e30, e31, e32, e40, e41, e42, e50, e51⟩ := idx_facts t
  show (V m c main_v59 : S2x100000x128.Idx → EReal) (((cfg0.win 0).blk t).view.emb (ix3 (0 : Fin 1) p k)) = _
  refine congrArg _ (funext fun a => Fin.ext ?_)
  match a with
  | ⟨0, _⟩ => show win0_0.index t (0 : Fin 3) * 1 + 1 * 0 = f.val; omega
  | ⟨1, _⟩ => show win0_0.index t (1 : Fin 3) * 5000 + 1 * p.val = r.val; omega
  | ⟨2, _⟩ => show win0_0.index t (2 : Fin 3) * 128 + 1 * k.val = k.val; omega

/-- The same entry of the second aggregate's block. -/
theorem blk1 (c : Dev nD) (t : Fin cfg0.N) (p : Fin 5000) (k : Fin 128) (f : Fin 2) (r : Fin 100000)
    (hf : f.val = win0_0.index t (0 : Fin 3)) (hr : r.val = win0_0.index t (1 : Fin 3) * 5000 + p.val) :
    iblk m c 1 t (ix3 (0 : Fin 1) p k) = (V m c main_v62 : S2x100000x128.Idx → EReal) (ix3 f r k) := by
  obtain ⟨f2, b20, e02, e10, e11, e12, e20, e21, e30, e31, e32, e40, e41, e42, e50, e51⟩ := idx_facts t
  show (V m c main_v62 : S2x100000x128.Idx → EReal) (((cfg0.win 1).blk t).view.emb (ix3 (0 : Fin 1) p k)) = _
  refine congrArg _ (funext fun a => Fin.ext ?_)
  match a with
  | ⟨0, _⟩ => show win0_1.index t (0 : Fin 3) * 1 + 1 * 0 = f.val; omega
  | ⟨1, _⟩ => show win0_1.index t (1 : Fin 3) * 5000 + 1 * p.val = r.val; omega
  | ⟨2, _⟩ => show win0_1.index t (2 : Fin 3) * 128 + 1 * k.val = k.val; omega

/-- Entry (p, k) of the table's block: table row (f·20 + b)·5000 + p. -/
theorem blk2 (c : Dev nD) (t : Fin cfg0.N) (p : Fin 5000) (k : Fin 128) (R : Fin 200000)
    (hR : R.val = win0_5.index t (0 : Fin 2) * 5000 + p.val) :
    iblk m c 2 t (ix2 p k) = (V m c main_arg0 : S200000x128.Idx → EReal) (ix2 R k) := by
  obtain ⟨f2, b20, e02, e10, e11, e12, e20, e21, e30, e31, e32, e40, e41, e42, e50, e51⟩ := idx_facts t
  show (V m c main_arg0 : S200000x128.Idx → EReal) (((cfg0.win 2).blk t).view.emb (ix2 p k)) = _
  refine congrArg _ (funext fun a => Fin.ext ?_)
  match a with
  | ⟨0, _⟩ => show win0_2.index t (0 : Fin 2) * 5000 + 1 * p.val = R.val; omega
  | ⟨1, _⟩ => show win0_2.index t (1 : Fin 2) * 128 + 1 * k.val = k.val; omega

/-- Entry (k, q) of the first weight's block: member f of the stack. -/
theorem blk3 (c : Dev nD) (t : Fin cfg0.N) (k q : Fin 128) (f : Fin 2) (hf : f.val = win0_0.index t (0 : Fin 3)) :
    iblk m c 3 t (ix3 (0 : Fin 1) k q) = (V m c main_v65 : S2x128x128.Idx → EReal) (ix3 f k q) := by
  obtain ⟨f2, b20, e02, e10, e11, e12, e20, e21, e30, e31, e32, e40, e41, e42, e50, e51⟩ := idx_facts t
  show (V m c main_v65 : S2x128x128.Idx → EReal) (((cfg0.win 3).blk t).view.emb (ix3 (0 : Fin 1) k q)) = _
  refine congrArg _ (funext fun a => Fin.ext ?_)
  match a with
  | ⟨0, _⟩ => show win0_3.index t (0 : Fin 3) * 1 + 1 * 0 = f.val; omega
  | ⟨1, _⟩ => show win0_3.index t (1 : Fin 3) * 128 + 1 * k.val = k.val; omega
  | ⟨2, _⟩ => show win0_3.index t (2 : Fin 3) * 128 + 1 * q.val = q.val; omega

/-- The same entry of the second weight's block. -/
theorem blk4 (c : Dev nD) (t : Fin cfg0.N) (k q : Fin 128) (f : Fin 2) (hf : f.val = win0_0.index t (0 : Fin 3)) :
    iblk m c 4 t (ix3 (0 : Fin 1) k q) = (V m c main_v68 : S2x128x128.Idx → EReal) (ix3 f k q) := by
  obtain ⟨f2, b20, e02, e10, e11, e12, e20, e21, e30, e31, e32, e40, e41, e42, e50, e51⟩ := idx_facts t
  show (V m c main_v68 : S2x128x128.Idx → EReal) (((cfg0.win 4).blk t).view.emb (ix3 (0 : Fin 1) k q)) = _
  refine congrArg _ (funext fun a => Fin.ext ?_)
  match a with
  | ⟨0, _⟩ => show win0_4.index t (0 : Fin 3) * 1 + 1 * 0 = f.val; omega
  | ⟨1, _⟩ => show win0_4.index t (1 : Fin 3) * 128 + 1 * k.val = k.val; omega
  | ⟨2, _⟩ => show win0_4.index t (2 : Fin 3) * 128 + 1 * q.val = q.val; omega

/-! ## A point's block of results, the cover, the whole array -/

/-- Each entry the body computes at point `t` is the stacked layer at that entry's place in the result array. -/
theorem block_eq (c : Dev nD) (t : Fin cfg0.N) (y : S5000x128.Idx) :
    k0_pay1 (F := Ideal) (iblk m c 0 t) (iblk m c 1 t) (iblk m c 2 t) (iblk m c 3 t) (iblk m c 4 t) y
      = Gs (V m c main_arg0) (V m c main_v59) (V m c main_v62) (V m c main_v65) (V m c main_v68) (((cfg0.win 5).blk t).view.emb y) := by
  obtain ⟨p, q, rfl⟩ : ∃ (p : Fin 5000) (q : Fin 128), y = ix2 p q := ⟨y 0, y 1, eq_ix2 y⟩
  obtain ⟨f2, b20, e02, e10, e11, e12, e20, e21, e30, e31, e32, e40, e41, e42, e50, e51⟩ := idx_facts t
  have hp := p.isLt
  have hq := q.isLt
  refine (pay_apply _ _ _ _ _ p q).trans ?_
  have E0 : (((cfg0.win 5).blk t).view.emb (ix2 p q) 0).val = win0_5.index t (0 : Fin 2) * 5000 + 1 * p.val := rfl
  have E1 : (((cfg0.win 5).blk t).view.emb (ix2 p q) 1).val = win0_5.index t (1 : Fin 2) * 128 + 1 * q.val := rfl
  rw [Gs_at (V m c main_arg0) (V m c main_v59) (V m c main_v62) (V m c main_v65) (V m c main_v68) (((cfg0.win 5).blk t).view.emb (ix2 p q))
    ⟨win0_0.index t (0 : Fin 3), f2⟩ ⟨win0_0.index t (1 : Fin 3) * 5000 + p.val, by omega⟩
    ⟨win0_5.index t (0 : Fin 2) * 5000 + p.val, by omega⟩ q
    (by rw [E0]; show win0_0.index t (0 : Fin 3) = _; omega)
    (by rw [E0]; show win0_0.index t (1 : Fin 3) * 5000 + p.val = _; omega)
    (by rw [E0]; show win0_5.index t (0 : Fin 2) * 5000 + p.val = _; omega)
    (by rw [E1]; omega)]
  refine congrArg gate (congrArg₂ (· + ·) (Finset.sum_congr rfl fun k _ => ?_) (Finset.sum_congr rfl fun k _ => ?_))
  · exact congrArg₂ (· * ·) (blk0 m c t p k _ _ rfl rfl) (blk3 m c t k q _ rfl)
  · exact congrArg₂ (· * ·) (congrArg₂ (· * ·) (blk1 m c t p k _ _ rfl rfl) (blk2 m c t p k _ rfl)) (blk4 m c t k q _ rfl)

/-- An index of the result array is in point `t`'s block iff each coordinate is in the block's range on its axis. -/
theorem mem_blk (t : Fin cfg0.N) (i : S200000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v69).slice (win0_5.rect t)).set ↔ _
  rw [View.set_slice_whole, Rect.mem_set_unit]
  exact Iff.rfl

/-- The forty blocks of 5000 rows tile the 200000 rows: row `R` is in the block numbered `R / 5000`. -/
theorem cover (i : S200000x128.Idx) : ∃ t : Fin cfg0.N, (cfg0.win 5).flush t = true ∧ i ∈ ((cfg0.win 5).blk t).view.set := by
  have hi0 : (i 0).val < 200000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

end Cert.KernelIdeal.GateValue

end
-- ==== Proof.KernelFinal.lean ====
/-
  The result array of the blocked kernel is the stacked layer of the arrays the region finds: each grid point writes
  back its block of it, and the blocks tile the array.
-/
import proofs.«101847_j11192684773414_2_alg».proof.Proof.KernelValue

noncomputable section

namespace Cert.KernelIdeal.GateValue

open Cert.KernelIdeal Cert.KernelIdeal.Gen Idealize.ShloMosaic Idealize.ShloMosaic.TcCoe Idealize.SL.Sem
open Idealize.ShloMosaic.ValueIdx Cert.GateSpec
open Idealize.ShloMosaic.Pipeline (Dat)

variable (m : (ℓ : Loc nD τ sig) → Buf (Elt Ideal) ℓ) (ρ : Dev nD → PrngReg)

/-- What point `t` writes back is block `t` of the stacked layer of the arrays the region finds. -/
theorem flushed_eq (c : Dev nD) (t : Fin cfg0.N) :
    (dats m 0 c).flushed 5 t = ((cfg0.win 5).blk t).view.read (Elt Ideal)
      (Gs (V m c main_arg0) (V m c main_v59) (V m c main_v62) (V m c main_v65) (V m c main_v68)) := by
  show (cfg0.win 5).cut (grid0.coords t) ((dats m 0 c).after 5 t) = _
  rw [after0_5]
  unfold Gen.out0_5
  rw [View.canon_unit_zero hz2]
  simp only [View.ld_unit_zero (S := S1x5000x128) hz3, View.ld_unit_zero (S := S5000x128) hz2, View.ld_unit_zero (S := S1x128x128) hz3]
  have key : ∀ (A : FVec Ideal S200000x128 .f32) (X : Vec Ideal S5000x128 .f32)
      (hX : ∀ y : S5000x128.Idx, X y = A (((cfg0.win 5).blk t).view.emb y)),
      (cfg0.win 5).cut (grid0.coords t) X = ((cfg0.win 5).blk t).view.read (Elt Ideal) A := by
    intro A X hX
    funext y
    exact hX y
  exact key _ _ (block_eq m c t)

/-- The result array after the run: the stacked layer of the arrays the region finds. -/
theorem final (c : Dev nD) :
    (dats m 0 c).arrAt 5 cfg0.N = Gs (V m c main_arg0) (V m c main_v59) (V m c main_v62) (V m c main_v65) (V m c main_v68) :=
  (dats m 0 c).arrAt_eq_of_cover 5 _ (fun t _ => flushed_eq m c t) cover

end Cert.KernelIdeal.GateValue

end
-- ==== Proof.KernelHost.lean ====
/-
  The arrays the blocked region finds, as functions of the argument arrays.

  Before the region the program computes four sparse aggregates and stacks them, and the four weight matrices, in pairs.
  One sparse aggregate (`spmm`): the table's rows are gathered at the column indices (an index below zero counts from
  the end), each gathered row is scaled by its value, and the scaled rows are summed into the row numbers given.  The
  table passes through a narrower float format on the way into the gather and back after it; both changes of format are
  stated here as the program states them.  `stackRows` / `stackW` give two arrays a unit leading axis and join them along it.
-/
import proofs.«101847_j11192684773414_2_alg».proof.Proof.Gen.KernelIdeal.Frame
import Idealize.ShloMosaic.Lib.StableHlo.Run

noncomputable section

namespace Cert.KernelIdeal.GateHost

open Cert.KernelIdeal Cert.KernelIdeal.Gen Idealize.ShloMosaic Idealize.ShloMosaic.TcCoe Idealize.SL.Sem Idealize.ShloMosaic.StableHlo

variable {F : FTy → Type} [FloatOps F]

/-- A column index below zero counts from the end of the table's 200000 rows. -/
def wrapIdx (cols : (⟨S1000000, .i32⟩ : BufTy).Contents (Elt F)) : (⟨S1000000, .i32⟩ : BufTy).Contents (Elt F) :=
  select (cmpi .slt cols (broadcastInDim S1000000 ![] bcast_S_S1000000 (constantI S_ 32 0#32)))
    (addi cols (broadcastInDim S1000000 ![] bcast_S_S1000000 (constantI S_ 32 200000#32))) cols

/-- One sparse aggregate: gather the table's rows at `cols`, scale row by row by `vals`, sum into the rows `rows`. -/
def spmm (tab : (⟨S200000x128, .f32⟩ : BufTy).Contents (Elt F)) (vals : (⟨S1000000, .f32⟩ : BufTy).Contents (Elt F))
    (rows cols : (⟨S1000000, .i32⟩ : BufTy).Contents (Elt F)) : (⟨S100000x128, .f32⟩ : BufTy).Contents (Elt F) :=
  Host.scatterAdd scatter_S100000x128_S1000000x1_S1000000x128_1_0_0_1
    (broadcastInDim S100000x128 ![] bcast_S_S100000x128 (constant S_ .f32 0x00000000#32))
    (broadcastInDim S1000000x1 ![0] bcast_S1000000_S1000000x1_0 rows)
    (mulf (broadcastInDim S1000000x128 ![0, 1] bcast_S1000000x1_S1000000x128_0_1 (broadcastInDim S1000000x1 ![0] bcast_S1000000_S1000000x1_0 vals))
      (extf .f32 (Host.gather gather_S200000x128_S1000000x1_S1000000x128_1_0_n_n_0_1_1128 (truncf .bf16 tab bitsLt_bf16_f32)
        (broadcastInDim S1000000x1 ![0] bcast_S1000000_S1000000x1_0 (wrapIdx cols))) bitsLt_bf16_f32))

/-- Two aggregates stacked along a new leading axis. -/
def stackRows (a b : (⟨S100000x128, .f32⟩ : BufTy).Contents (Elt F)) : (⟨S2x100000x128, .f32⟩ : BufTy).Contents (Elt F) :=
  concatenate S2x100000x128 0 [⟨S1x100000x128, broadcastInDim S1x100000x128 ![1, 2] bcast_S100000x128_S1x100000x128_1_2 a⟩,
    ⟨S1x100000x128, broadcastInDim S1x100000x128 ![1, 2] bcast_S100000x128_S1x100000x128_1_2 b⟩] concatenates_S1x100000x128_S1x100000x128_S2x100000x128_d0

/-- Two weight matrices stacked along a new leading axis. -/
def stackW (a b : (⟨S128x128, .f32⟩ : BufTy).Contents (Elt F)) : (⟨S2x128x128, .f32⟩ : BufTy).Contents (Elt F) :=
  concatenate S2x128x128 0 [⟨S1x128x128, broadcastInDim S1x128x128 ![1, 2] bcast_S128x128_S1x128x128_1_2 a⟩,
    ⟨S1x128x128, broadcastInDim S1x128x128 ![1, 2] bcast_S128x128_S1x128x128_1_2 b⟩] concatenates_S1x128x128_S1x128x128_S2x128x128_d0

variable (m : (ℓ : Loc nD τ sig) → Buf (Elt F) ℓ)

set_option maxRecDepth 8192 in
set_option maxHeartbeats 40000000 in
/-- The first stacked aggregate the region finds: the users' and the items' first aggregates. -/
theorem V_v59 (c : Dev nD) : V m c main_v59
    = stackRows (spmm (m ((c : Thread nD τ).loc main_arg0)) (m ((c : Thread nD τ).loc main_arg5)) (m ((c : Thread nD τ).loc main_arg9)) (m ((c : Thread nD τ).loc main_arg10))) (spmm (m ((c : Thread nD τ).loc main_arg0)) (m ((c : Thread nD τ).loc main_arg7)) (m ((c : Thread nD τ).loc main_arg13)) (m ((c : Thread nD τ).loc main_arg14))) := by
  dsimp only [Gen.V, Gen.hostOps0]
  after_results_simp
  rfl

set_option maxRecDepth 8192 in
set_option maxHeartbeats 40000000 in
/-- The second stacked aggregate the region finds. -/
theorem V_v62 (c : Dev nD) : V m c main_v62
    = stackRows (spmm (m ((c : Thread nD τ).loc main_arg0)) (m ((c : Thread nD τ).loc main_arg6)) (m ((c : Thread nD τ).loc main_arg11)) (m ((c : Thread nD τ).loc main_arg12))) (spmm (m ((c : Thread nD τ).loc main_arg0)) (m ((c : Thread nD τ).loc main_arg8)) (m ((c : Thread nD τ).loc main_arg15)) (m ((c : Thread nD τ).loc main_arg16))) := by
  dsimp only [Gen.V, Gen.hostOps0]
  after_results_simp
  rfl

set_option maxRecDepth 8192 in
set_option maxHeartbeats 40000000 in
/-- The first stacked weight the region finds. -/
theorem V_v65 (c : Dev nD) : V m c main_v65 = stackW (m ((c : Thread nD τ).loc main_arg1)) (m ((c : Thread nD τ).loc main_arg3)) := by
  dsimp only [Gen.V, Gen.hostOps0]
  after_results_simp
  rfl

set_option maxRecDepth 8192 in
set_option maxHeartbeats 40000000 in
/-- The second stacked weight the region finds. -/
theorem V_v68 (c : Dev nD) : V m c main_v68 = stackW (m ((c : Thread nD τ).loc main_arg2)) (m ((c : Thread nD τ).loc main_arg4)) := by
  dsimp only [Gen.V, Gen.hostOps0]
  after_results_simp
  rfl

end Cert.KernelIdeal.GateHost

end
-- ==== Proof.KernelRun.lean ====
/-
  The blocked kernel's run, with its result as the layer `G` of the argument arrays: the result array is the stacked
  layer of what the region finds (`final`); what it finds are the argument table, the two stacks of sparse aggregates
  and the two stacks of weights; and the stacked layer of stacks is the layer of their members.
-/
import proofs.«101847_j11192684773414_2_alg».proof.Proof.KernelFinal
import proofs.«101847_j11192684773414_2_alg».proof.Proof.KernelHost

noncomputable section

namespace Cert.KernelIdeal.GateValue

open Cert.KernelIdeal Cert.KernelIdeal.Gen Idealize.ShloMosaic Idealize.ShloMosaic.TcCoe Idealize.SL.Sem
open Idealize.ShloMosaic.ValueIdx Cert.GateSpec
open Idealize.ShloMosaic.Pipeline (Dat)

variable (m : (ℓ : Loc nD τ sig) → Buf (Elt Ideal) ℓ) (ρ : Dev nD → PrngReg)

/-- Member `f` of two stacked aggregates, and of two stacked weights. -/
theorem stackRows_apply (a b : FVec Ideal S100000x128 .f32) (f : Fin 2) (r : Fin 100000) (k : Fin 128) :
    GateHost.stackRows (F := Ideal) a b (ix3 f r k) = if f.val = 0 then a (ix2 r k) else b (ix2 r k) :=
  stack_apply (N := 100000) (M := 128) a b bcast_S100000x128_S1x100000x128_1_2 concatenates_S1x100000x128_S1x100000x128_S2x100000x128_d0 f r k

theorem stackW_apply (a b : FVec Ideal S128x128 .f32) (f : Fin 2) (k j : Fin 128) :
    GateHost.stackW (F := Ideal) a b (ix3 f k j) = if f.val = 0 then a (ix2 k j) else b (ix2 k j) :=
  stack_apply (N := 128) (M := 128) a b bcast_S128x128_S1x128x128_1_2 concatenates_S1x128x128_S1x128x128_S2x128x128_d0 f k j

/-- The result array after the run, as the layer of the argument arrays. -/
theorem kernel_value (c : Dev nD) :
    (dats m 0 c).arrAt 5 cfg0.N = G (m ((c : Thread nD τ).loc main_arg0))
        (GateHost.spmm (m ((c : Thread nD τ).loc main_arg0)) (m ((c : Thread nD τ).loc main_arg5)) (m ((c : Thread nD τ).loc main_arg9)) (m ((c : Thread nD τ).loc main_arg10))) (GateHost.spmm (m ((c : Thread nD τ).loc main_arg0)) (m ((c : Thread nD τ).loc main_arg7)) (m ((c : Thread nD τ).loc main_arg13)) (m ((c : Thread nD τ).loc main_arg14)))
        (GateHost.spmm (m ((c : Thread nD τ).loc main_arg0)) (m ((c : Thread nD τ).loc main_arg6)) (m ((c : Thread nD τ).loc main_arg11)) (m ((c : Thread nD τ).loc main_arg12))) (GateHost.spmm (m ((c : Thread nD τ).loc main_arg0)) (m ((c : Thread nD τ).loc main_arg8)) (m ((c : Thread nD τ).loc main_arg15)) (m ((c : Thread nD τ).loc main_arg16)))
        (m ((c : Thread nD τ).loc main_arg1)) (m ((c : Thread nD τ).loc main_arg3)) (m ((c : Thread nD τ).loc main_arg2)) (m ((c : Thread nD τ).loc main_arg4)) := by
  rw [final m c, V_main_arg0, GateHost.V_v59, GateHost.V_v62, GateHost.V_v65, GateHost.V_v68]
  exact Gs_of_members _ _ _ _ _ _ _ _ _ _ _ _ _
    (fun f r k => stackRows_apply _ _ f r k) (fun f r k => stackRows_apply _ _ f r k)
    (fun f k j => stackW_apply _ _ f k j) (fun f k j => stackW_apply _ _ f k j)

/-- Every weakly fair execution of the kernel's program terminates with the result array at the layer of the
    argument arrays, the arguments unchanged. -/
theorem kernel_run : θ_run defs (onTc (τ := τ) (main (F := Ideal))) ⟨m, fun _ => 0, ρ⟩ fun r => ∀ c : Dev nD,
      r.2.mem ((c : Thread nD τ).loc main_v69) = G (m ((c : Thread nD τ).loc main_arg0))
        (GateHost.spmm (m ((c : Thread nD τ).loc main_arg0)) (m ((c : Thread nD τ).loc main_arg5)) (m ((c : Thread nD τ).loc main_arg9)) (m ((c : Thread nD τ).loc main_arg10))) (GateHost.spmm (m ((c : Thread nD τ).loc main_arg0)) (m ((c : Thread nD τ).loc main_arg7)) (m ((c : Thread nD τ).loc main_arg13)) (m ((c : Thread nD τ).loc main_arg14)))
        (GateHost.spmm (m ((c : Thread nD τ).loc main_arg0)) (m ((c : Thread nD τ).loc main_arg6)) (m ((c : Thread nD τ).loc main_arg11)) (m ((c : Thread nD τ).loc main_arg12))) (GateHost.spmm (m ((c : Thread nD τ).loc main_arg0)) (m ((c : Thread nD τ).loc main_arg8)) (m ((c : Thread nD τ).loc main_arg15)) (m ((c : Thread nD τ).loc main_arg16)))
        (m ((c : Thread nD τ).loc main_arg1)) (m ((c : Thread nD τ).loc main_arg3)) (m ((c : Thread nD τ).loc main_arg2)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨(h c).1.trans (kernel_value m c), (h c).2⟩) (Value.run_blocks m ρ)

end Cert.KernelIdeal.GateValue

end
-- ==== Proof.RefRun.lean ====
/- The reference program's run: @main as the LIST of its 95 host operations (the two calls of @leaky_relu
   unfolded at their call sites, each into its six operations and the one of the @_where it calls), and the
   run read back: every weakly fair execution terminates with the result buffer at ONE pure function `out` of
   the seventeen arguments' launch contents, the arguments unchanged. -/
import proofs.«101847_j11192684773414_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The value: one function of the arguments

Each definition is spelt with the printed operations, in the printed operand order, so that the run's composed
term is `out` by unfolding. -/

/-- A column index made non-negative: `c + 200000` where `c < 0`, else `c`. -/
def wrapIdx (cols : (⟨S1000000, .i32⟩ : BufTy).Contents (Elt F)) : (⟨S1000000, .i32⟩ : BufTy).Contents (Elt F) :=
  select (cmpi .slt cols (broadcastInDim S1000000 ![] bcast_S_S1000000 (constantI S_ 32 0#32)))
    (addi cols (broadcastInDim S1000000 ![] bcast_S_S1000000 (constantI S_ 32 200000#32))) cols

/-- The sparse product: the rows of `tab` at the (wrapped) column indices, each scaled by its value, added into
    a zero table at the row indices. -/
def spmm (tab : (⟨S200000x128, .f32⟩ : BufTy).Contents (Elt F)) (vals : (⟨S1000000, .f32⟩ : BufTy).Contents (Elt F))
    (rows cols : (⟨S1000000, .i32⟩ : BufTy).Contents (Elt F)) : (⟨S100000x128, .f32⟩ : BufTy).Contents (Elt F) :=
  Host.scatterAdd scatter_S100000x128_S1000000x1_S1000000x128_1_0_0_1
    (broadcastInDim S100000x128 ![] bcast_S_S100000x128 (constant S_ .f32 0x00000000#32))
    (broadcastInDim S1000000x1 ![0] bcast_S1000000_S1000000x1_0 rows)
    (mulf (broadcastInDim S1000000x128 ![0, 1] bcast_S1000000x1_S1000000x128_0_1 (broadcastInDim S1000000x1 ![0] bcast_S1000000_S1000000x1_0 vals))
      (Host.gather gather_S200000x128_S1000000x1_S1000000x128_1_0_n_n_0_1_1128 tab
        (broadcastInDim S1000000x1 ![0] bcast_S1000000_S1000000x1_0 (wrapIdx cols))))

/-- The leaky rectifier of slope 0.2: `x` where `x ≥ 0`, else `0.2 · x`. -/
def leaky (x : (⟨S100000x128, .f32⟩ : BufTy).Contents (Elt F)) : (⟨S100000x128, .f32⟩ : BufTy).Contents (Elt F) :=
  select (cmpf .oge x (broadcastInDim S100000x128 ![] bcast_S_S100000x128 (constant S_ .f32 0x00000000#32))) x
    (mulf (broadcastInDim S100000x128 ![] bcast_S_S100000x128 (constant S_ .f32 0x3E4CCCCD#32)) x)

/-- The hundred thousand rows of `tab` from row `start` (column 0). -/
def rowsFrom (start : BitVec 32) (tab : (⟨S200000x128, .f32⟩ : BufTy).Contents (Elt F)) : (⟨S100000x128, .f32⟩ : BufTy).Contents (Elt F) :=
  Host.dynamicSlice S100000x128 tab
    (fun k => ((![constantI S_ 32 start, constantI S_ 32 0#32] : Fin 2 → (⟨S_, .i32⟩ : BufTy).Contents (Elt F)) k (Shape.Idx.first h_S_)).toInt)
    sliceFits_S200000x128_S100000x128

/-- One side's update: `leaky (LI · Wside + (L * rowsFrom start tab) · Wdot)`, `·` the matrix product and `*` the
    elementwise one. -/
def fold (start : BitVec 32) (tab : (⟨S200000x128, .f32⟩ : BufTy).Contents (Elt F))
    (LI L : (⟨S100000x128, .f32⟩ : BufTy).Contents (Elt F)) (Wside Wdot : (⟨S128x128, .f32⟩ : BufTy).Contents (Elt F)) : (⟨S100000x128, .f32⟩ : BufTy).Contents (Elt F) :=
  leaky (addf (Host.dotGeneral dot_S100000x128_S128x128_S100000x128_1_0_0_1_n_n none LI Wside)
    (Host.dotGeneral dot_S100000x128_S128x128_S100000x128_1_0_0_1_n_n none (mulf L (rowsFrom start tab)) Wdot))

/-- The reference's value: the two sides' updates, one above the other. -/
def out (a0 : (⟨S200000x128, .f32⟩ : BufTy).Contents (Elt F))
    (a1 : (⟨S128x128, .f32⟩ : BufTy).Contents (Elt F))
    (a2 : (⟨S128x128, .f32⟩ : BufTy).Contents (Elt F))
    (a3 : (⟨S128x128, .f32⟩ : BufTy).Contents (Elt F))
    (a4 : (⟨S128x128, .f32⟩ : BufTy).Contents (Elt F))
    (a5 : (⟨S1000000, .f32⟩ : BufTy).Contents (Elt F))
    (a6 : (⟨S1000000, .f32⟩ : BufTy).Contents (Elt F))
    (a7 : (⟨S1000000, .f32⟩ : BufTy).Contents (Elt F))
    (a8 : (⟨S1000000, .f32⟩ : BufTy).Contents (Elt F))
    (a9 : (⟨S1000000, .i32⟩ : BufTy).Contents (Elt F))
    (a10 : (⟨S1000000, .i32⟩ : BufTy).Contents (Elt F))
    (a11 : (⟨S1000000, .i32⟩ : BufTy).Contents (Elt F))
    (a12 : (⟨S1000000, .i32⟩ : BufTy).Contents (Elt F))
    (a13 : (⟨S1000000, .i32⟩ : BufTy).Contents (Elt F))
    (a14 : (⟨S1000000, .i32⟩ : BufTy).Contents (Elt F))
    (a15 : (⟨S1000000, .i32⟩ : BufTy).Contents (Elt F))
    (a16 : (⟨S1000000, .i32⟩ : BufTy).Contents (Elt F)) :
    (⟨S200000x128, .f32⟩ : BufTy).Contents (Elt F) :=
  concatenate S200000x128 0
    [⟨S100000x128, fold 0#32 a0 (spmm a0 a5 a9 a10) (spmm a0 a6 a11 a12) a1 a2⟩,
     ⟨S100000x128, fold 100000#32 a0 (spmm a0 a7 a13 a14) (spmm a0 a8 a15 a16) a3 a4⟩]
    concatenates_S100000x128_S100000x128_S200000x128_d0

/-! ## The operations -/

/-- @main's 95 operations, in order, the calls unfolded: each `leaky_relu(x, slope)` is seven — the zero, its
    broadcast, the comparison, the slope converted to its own type, its broadcast, the product, and `_where`'s
    select into the call's result buffer. -/
abbrev ops : List (HloOp τ sig (Elt F)) :=
  [
    unary main_arg5 main_v0 (broadcastInDim S1000000x1 ![0] bcast_S1000000_S1000000x1_0 : (⟨S1000000, .f32⟩ : BufTy).Contents (Elt F) → (⟨S1000000x1, .f32⟩ : BufTy).Contents (Elt F)),
    nullary main_c (constantI S_ 32 0#32),
    unary main_c main_v1 (broadcastInDim S1000000 ![] bcast_S_S1000000 : (⟨S_, .i32⟩ : BufTy).Contents (Elt F) → (⟨S1000000, .i32⟩ : BufTy).Contents (Elt F)),
    binary main_arg10 main_v1 main_v2 (cmpi .slt : (⟨S1000000, .i32⟩ : BufTy).Contents (Elt F) → (⟨S1000000, .i32⟩ : BufTy).Contents (Elt F) → (⟨S1000000, .i1⟩ : BufTy).Contents (Elt F)),
    nullary main_c_0 (constantI S_ 32 200000#32),
    unary main_c_0 main_v3 (broadcastInDim S1000000 ![] bcast_S_S1000000 : (⟨S_, .i32⟩ : BufTy).Contents (Elt F) → (⟨S1000000, .i32⟩ : BufTy).Contents (Elt F)),
    binary main_arg10 main_v3 main_v4 (addi : (⟨S1000000, .i32⟩ : BufTy).Contents (Elt F) → (⟨S1000000, .i32⟩ : BufTy).Contents (Elt F) → (⟨S1000000, .i32⟩ : BufTy).Contents (Elt F)),
    ternary main_v2 main_v4 main_arg10 main_v5 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v5 main_v6 (broadcastInDim S1000000x1 ![0] bcast_S1000000_S1000000x1_0 : (⟨S1000000, .i32⟩ : BufTy).Contents (Elt F) → (⟨S1000000x1, .i32⟩ : BufTy).Contents (Elt F)),
    binary main_arg0 main_v6 main_v7 ((fun x i => Host.gather gather_S200000x128_S1000000x1_S1000000x128_1_0_n_n_0_1_1128 x i) : (⟨S200000x128, .f32⟩ : BufTy).Contents (Elt F) → (⟨S1000000x1, .i32⟩ : BufTy).Contents (Elt F) → (⟨S1000000x128, .f32⟩ : BufTy).Contents (Elt F)),
    unary main_v0 main_v8 (broadcastInDim S1000000x128 ![0, 1] bcast_S1000000x1_S1000000x128_0_1 : (⟨S1000000x1, .f32⟩ : BufTy).Contents (Elt F) → (⟨S1000000x128, .f32⟩ : BufTy).Contents (Elt F)),
    binary main_v8 main_v7 main_v9 (mulf : (⟨S1000000x128, .f32⟩ : BufTy).Contents (Elt F) → (⟨S1000000x128, .f32⟩ : BufTy).Contents (Elt F) → (⟨S1000000x128, .f32⟩ : BufTy).Contents (Elt F)),
    nullary main_cst (constant S_ .f32 0x00000000#32),
    unary main_cst main_v10 (broadcastInDim S100000x128 ![] bcast_S_S100000x128 : (⟨S_, .f32⟩ : BufTy).Contents (Elt F) → (⟨S100000x128, .f32⟩ : BufTy).Contents (Elt F)),
    unary main_arg9 main_v11 (broadcastInDim S1000000x1 ![0] bcast_S1000000_S1000000x1_0 : (⟨S1000000, .i32⟩ : BufTy).Contents (Elt F) → (⟨S1000000x1, .i32⟩ : BufTy).Contents (Elt F)),
    ternary main_v10 main_v11 main_v9 main_v12 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    unary main_arg6 main_v13 (broadcastInDim S1000000x1 ![0] bcast_S1000000_S1000000x1_0 : (⟨S1000000, .f32⟩ : BufTy).Contents (Elt F) → (⟨S1000000x1, .f32⟩ : BufTy).Contents (Elt F)),
    nullary main_c_1 (constantI S_ 32 0#32),
    unary main_c_1 main_v14 (broadcastInDim S1000000 ![] bcast_S_S1000000 : (⟨S_, .i32⟩ : BufTy).Contents (Elt F) → (⟨S1000000, .i32⟩ : BufTy).Contents (Elt F)),
    binary main_arg12 main_v14 main_v15 (cmpi .slt : (⟨S1000000, .i32⟩ : BufTy).Contents (Elt F) → (⟨S1000000, .i32⟩ : BufTy).Contents (Elt F) → (⟨S1000000, .i1⟩ : BufTy).Contents (Elt F)),
    nullary main_c_2 (constantI S_ 32 200000#32),
    unary main_c_2 main_v16 (broadcastInDim S1000000 ![] bcast_S_S1000000 : (⟨S_, .i32⟩ : BufTy).Contents (Elt F) → (⟨S1000000, .i32⟩ : BufTy).Contents (Elt F)),
    binary main_arg12 main_v16 main_v17 (addi : (⟨S1000000, .i32⟩ : BufTy).Contents (Elt F) → (⟨S1000000, .i32⟩ : BufTy).Contents (Elt F) → (⟨S1000000, .i32⟩ : BufTy).Contents (Elt F)),
    ternary main_v15 main_v17 main_arg12 main_v18 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v18 main_v19 (broadcastInDim S1000000x1 ![0] bcast_S1000000_S1000000x1_0 : (⟨S1000000, .i32⟩ : BufTy).Contents (Elt F) → (⟨S1000000x1, .i32⟩ : BufTy).Contents (Elt F)),
    binary main_arg0 main_v19 main_v20 ((fun x i => Host.gather gather_S200000x128_S1000000x1_S1000000x128_1_0_n_n_0_1_1128 x i) : (⟨S200000x128, .f32⟩ : BufTy).Contents (Elt F) → (⟨S1000000x1, .i32⟩ : BufTy).Contents (Elt F) → (⟨S1000000x128, .f32⟩ : BufTy).Contents (Elt F)),
    unary main_v13 main_v21 (broadcastInDim S1000000x128 ![0, 1] bcast_S1000000x1_S1000000x128_0_1 : (⟨S1000000x1, .f32⟩ : BufTy).Contents (Elt F) → (⟨S1000000x128, .f32⟩ : BufTy).Contents (Elt F)),
    binary main_v21 main_v20 main_v22 (mulf : (⟨S1000000x128, .f32⟩ : BufTy).Contents (Elt F) → (⟨S1000000x128, .f32⟩ : BufTy).Contents (Elt F) → (⟨S1000000x128, .f32⟩ : BufTy).Contents (Elt F)),
    nullary main_cst_3 (constant S_ .f32 0x00000000#32),
    unary main_cst_3 main_v23 (broadcastInDim S100000x128 ![] bcast_S_S100000x128 : (⟨S_, .f32⟩ : BufTy).Contents (Elt F) → (⟨S100000x128, .f32⟩ : BufTy).Contents (Elt F)),
    unary main_arg11 main_v24 (broadcastInDim S1000000x1 ![0] bcast_S1000000_S1000000x1_0 : (⟨S1000000, .i32⟩ : BufTy).Contents (Elt F) → (⟨S1000000x1, .i32⟩ : BufTy).Contents (Elt F)),
    ternary main_v23 main_v24 main_v22 main_v25 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    nullary main_c_4 (constantI S_ 32 0#32),
    nullary main_c_5 (constantI S_ 32 0#32),
    unaryIndexed main_arg0 ![main_c_4, main_c_5] ⟨S_, .i32⟩ main_v26 ((fun x i => Host.dynamicSlice S100000x128 x (fun k => (i k (Shape.Idx.first h_S_)).toInt) sliceFits_S200000x128_S100000x128) : (⟨S200000x128, .f32⟩ : BufTy).Contents (Elt F) → (Fin 2 → (⟨S_, .i32⟩ : BufTy).Contents (Elt F)) → (⟨S100000x128, .f32⟩ : BufTy).Contents (Elt F)),
    binary main_v12 main_arg1 main_v27 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v25 main_v26 main_v28 (mulf : (⟨S100000x128, .f32⟩ : BufTy).Contents (Elt F) → (⟨S100000x128, .f32⟩ : BufTy).Contents (Elt F) → (⟨S100000x128, .f32⟩ : BufTy).Contents (Elt F)),
    binary main_v28 main_arg2 main_v29 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v27 main_v29 main_v30 (addf : (⟨S100000x128, .f32⟩ : BufTy).Contents (Elt F) → (⟨S100000x128, .f32⟩ : BufTy).Contents (Elt F) → (⟨S100000x128, .f32⟩ : BufTy).Contents (Elt F)),
    nullary main_cst_6 (constant S_ .f32 0x3E4CCCCD#32),
    TRef.nullary main_call0.cst (constant S_ .f32 0x00000000#32),
    TRef.unary main_call0.cst main_call0.v0 (broadcastInDim S100000x128 ![] bcast_S_S100000x128),
    TRef.binary (.of main_v30) main_call0.v0 main_call0.v1 (cmpf .oge),
    TRef.unary (.of main_cst_6) main_call0.v2 id,
    TRef.unary main_call0.v2 main_call0.v3 (broadcastInDim S100000x128 ![] bcast_S_S100000x128),
    TRef.binary main_call0.v3 (.of main_v30) main_call0.v4 mulf,
    TRef.ternary main_call0.v1 (.of main_v30) main_call0.v4 main_call0.call0.v0 select,
    unary main_arg7 main_v32 (broadcastInDim S1000000x1 ![0] bcast_S1000000_S1000000x1_0 : (⟨S1000000, .f32⟩ : BufTy).Contents (Elt F) → (⟨S1000000x1, .f32⟩ : BufTy).Contents (Elt F)),
    nullary main_c_7 (constantI S_ 32 0#32),
    unary main_c_7 main_v33 (broadcastInDim S1000000 ![] bcast_S_S1000000 : (⟨S_, .i32⟩ : BufTy).Contents (Elt F) → (⟨S1000000, .i32⟩ : BufTy).Contents (Elt F)),
    binary main_arg14 main_v33 main_v34 (cmpi .slt : (⟨S1000000, .i32⟩ : BufTy).Contents (Elt F) → (⟨S1000000, .i32⟩ : BufTy).Contents (Elt F) → (⟨S1000000, .i1⟩ : BufTy).Contents (Elt F)),
    nullary main_c_8 (constantI S_ 32 200000#32),
    unary main_c_8 main_v35 (broadcastInDim S1000000 ![] bcast_S_S1000000 : (⟨S_, .i32⟩ : BufTy).Contents (Elt F) → (⟨S1000000, .i32⟩ : BufTy).Contents (Elt F)),
    binary main_arg14 main_v35 main_v36 (addi : (⟨S1000000, .i32⟩ : BufTy).Contents (Elt F) → (⟨S1000000, .i32⟩ : BufTy).Contents (Elt F) → (⟨S1000000, .i32⟩ : BufTy).Contents (Elt F)),
    ternary main_v34 main_v36 main_arg14 main_v37 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v37 main_v38 (broadcastInDim S1000000x1 ![0] bcast_S1000000_S1000000x1_0 : (⟨S1000000, .i32⟩ : BufTy).Contents (Elt F) → (⟨S1000000x1, .i32⟩ : BufTy).Contents (Elt F)),
    binary main_arg0 main_v38 main_v39 ((fun x i => Host.gather gather_S200000x128_S1000000x1_S1000000x128_1_0_n_n_0_1_1128 x i) : (⟨S200000x128, .f32⟩ : BufTy).Contents (Elt F) → (⟨S1000000x1, .i32⟩ : BufTy).Contents (Elt F) → (⟨S1000000x128, .f32⟩ : BufTy).Contents (Elt F)),
    unary main_v32 main_v40 (broadcastInDim S1000000x128 ![0, 1] bcast_S1000000x1_S1000000x128_0_1 : (⟨S1000000x1, .f32⟩ : BufTy).Contents (Elt F) → (⟨S1000000x128, .f32⟩ : BufTy).Contents (Elt F)),
    binary main_v40 main_v39 main_v41 (mulf : (⟨S1000000x128, .f32⟩ : BufTy).Contents (Elt F) → (⟨S1000000x128, .f32⟩ : BufTy).Contents (Elt F) → (⟨S1000000x128, .f32⟩ : BufTy).Contents (Elt F)),
    nullary main_cst_9 (constant S_ .f32 0x00000000#32),
    unary main_cst_9 main_v42 (broadcastInDim S100000x128 ![] bcast_S_S100000x128 : (⟨S_, .f32⟩ : BufTy).Contents (Elt F) → (⟨S100000x128, .f32⟩ : BufTy).Contents (Elt F)),
    unary main_arg13 main_v43 (broadcastInDim S1000000x1 ![0] bcast_S1000000_S1000000x1_0 : (⟨S1000000, .i32⟩ : BufTy).Contents (Elt F) → (⟨S1000000x1, .i32⟩ : BufTy).Contents (Elt F)),
    ternary main_v42 main_v43 main_v41 main_v44 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    unary main_arg8 main_v45 (broadcastInDim S1000000x1 ![0] bcast_S1000000_S1000000x1_0 : (⟨S1000000, .f32⟩ : BufTy).Contents (Elt F) → (⟨S1000000x1, .f32⟩ : BufTy).Contents (Elt F)),
    nullary main_c_10 (constantI S_ 32 0#32),
    unary main_c_10 main_v46 (broadcastInDim S1000000 ![] bcast_S_S1000000 : (⟨S_, .i32⟩ : BufTy).Contents (Elt F) → (⟨S1000000, .i32⟩ : BufTy).Contents (Elt F)),
    binary main_arg16 main_v46 main_v47 (cmpi .slt : (⟨S1000000, .i32⟩ : BufTy).Contents (Elt F) → (⟨S1000000, .i32⟩ : BufTy).Contents (Elt F) → (⟨S1000000, .i1⟩ : BufTy).Contents (Elt F)),
    nullary main_c_11 (constantI S_ 32 200000#32),
    unary main_c_11 main_v48 (broadcastInDim S1000000 ![] bcast_S_S1000000 : (⟨S_, .i32⟩ : BufTy).Contents (Elt F) → (⟨S1000000, .i32⟩ : BufTy).Contents (Elt F)),
    binary main_arg16 main_v48 main_v49 (addi : (⟨S1000000, .i32⟩ : BufTy).Contents (Elt F) → (⟨S1000000, .i32⟩ : BufTy).Contents (Elt F) → (⟨S1000000, .i32⟩ : BufTy).Contents (Elt F)),
    ternary main_v47 main_v49 main_arg16 main_v50 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v50 main_v51 (broadcastInDim S1000000x1 ![0] bcast_S1000000_S1000000x1_0 : (⟨S1000000, .i32⟩ : BufTy).Contents (Elt F) → (⟨S1000000x1, .i32⟩ : BufTy).Contents (Elt F)),
    binary main_arg0 main_v51 main_v52 ((fun x i => Host.gather gather_S200000x128_S1000000x1_S1000000x128_1_0_n_n_0_1_1128 x i) : (⟨S200000x128, .f32⟩ : BufTy).Contents (Elt F) → (⟨S1000000x1, .i32⟩ : BufTy).Contents (Elt F) → (⟨S1000000x128, .f32⟩ : BufTy).Contents (Elt F)),
    unary main_v45 main_v53 (broadcastInDim S1000000x128 ![0, 1] bcast_S1000000x1_S1000000x128_0_1 : (⟨S1000000x1, .f32⟩ : BufTy).Contents (Elt F) → (⟨S1000000x128, .f32⟩ : BufTy).Contents (Elt F)),
    binary main_v53 main_v52 main_v54 (mulf : (⟨S1000000x128, .f32⟩ : BufTy).Contents (Elt F) → (⟨S1000000x128, .f32⟩ : BufTy).Contents (Elt F) → (⟨S1000000x128, .f32⟩ : BufTy).Contents (Elt F)),
    nullary main_cst_12 (constant S_ .f32 0x00000000#32),
    unary main_cst_12 main_v55 (broadcastInDim S100000x128 ![] bcast_S_S100000x128 : (⟨S_, .f32⟩ : BufTy).Contents (Elt F) → (⟨S100000x128, .f32⟩ : BufTy).Contents (Elt F)),
    unary main_arg15 main_v56 (broadcastInDim S1000000x1 ![0] bcast_S1000000_S1000000x1_0 : (⟨S1000000, .i32⟩ : BufTy).Contents (Elt F) → (⟨S1000000x1, .i32⟩ : BufTy).Contents (Elt F)),
    ternary main_v55 main_v56 main_v54 main_v57 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    nullary main_c_13 (constantI S_ 32 100000#32),
    nullary main_c_14 (constantI S_ 32 0#32),
    unaryIndexed main_arg0 ![main_c_13, main_c_14] ⟨S_, .i32⟩ main_v58 ((fun x i => Host.dynamicSlice S100000x128 x (fun k => (i k (Shape.Idx.first h_S_)).toInt) sliceFits_S200000x128_S100000x128) : (⟨S200000x128, .f32⟩ : BufTy).Contents (Elt F) → (Fin 2 → (⟨S_, .i32⟩ : BufTy).Contents (Elt F)) → (⟨S100000x128, .f32⟩ : BufTy).Contents (Elt F)),
    binary main_v44 main_arg3 main_v59 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v57 main_v58 main_v60 (mulf : (⟨S100000x128, .f32⟩ : BufTy).Contents (Elt F) → (⟨S100000x128, .f32⟩ : BufTy).Contents (Elt F) → (⟨S100000x128, .f32⟩ : BufTy).Contents (Elt F)),
    binary main_v60 main_arg4 main_v61 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v59 main_v61 main_v62 (addf : (⟨S100000x128, .f32⟩ : BufTy).Contents (Elt F) → (⟨S100000x128, .f32⟩ : BufTy).Contents (Elt F) → (⟨S100000x128, .f32⟩ : BufTy).Contents (Elt F)),
    nullary main_cst_15 (constant S_ .f32 0x3E4CCCCD#32),
    TRef.nullary main_call1.cst (constant S_ .f32 0x00000000#32),
    TRef.unary main_call1.cst main_call1.v0 (broadcastInDim S100000x128 ![] bcast_S_S100000x128),
    TRef.binary (.of main_v62) main_call1.v0 main_call1.v1 (cmpf .oge),
    TRef.unary (.of main_cst_15) main_call1.v2 id,
    TRef.unary main_call1.v2 main_call1.v3 (broadcastInDim S100000x128 ![] bcast_S_S100000x128),
    TRef.binary main_call1.v3 (.of main_v62) main_call1.v4 mulf,
    TRef.ternary main_call1.v1 (.of main_v62) main_call1.v4 main_call1.call0.v0 select,
    binary main_v31 main_v63 main_v64 ((fun a b => concatenate S200000x128 0 [⟨S100000x128, a⟩, ⟨S100000x128, b⟩] concatenates_S100000x128_S100000x128_S200000x128_d0) : (⟨S100000x128, .f32⟩ : BufTy).Contents (Elt F) → (⟨S100000x128, .f32⟩ : BufTy).Contents (Elt F) → (⟨S200000x128, .f32⟩ : BufTy).Contents (Elt F)) ]

set_option maxRecDepth 8192 in
set_option maxHeartbeats 4000000 in
/-- @main is that straight line: the functions' bodies unfolded at their calls, both sides are one chain of
    `hlo` steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., binary_bufs_sub .., nullary_bufs_sub .., unary_bufs_sub ..,
    unary_bufs_sub .., ternary_bufs_sub .., nullary_bufs_sub .., nullary_bufs_sub .., unaryIndexed_bufs_sub .., binary_bufs_sub ..,
    binary_bufs_sub .., binary_bufs_sub .., binary_bufs_sub .., nullary_bufs_sub .., nullary_bufs_sub .., unary_bufs_sub ..,
    binary_bufs_sub .., unary_bufs_sub .., unary_bufs_sub .., binary_bufs_sub .., ternary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., binary_bufs_sub .., nullary_bufs_sub .., unary_bufs_sub .., unary_bufs_sub ..,
    ternary_bufs_sub .., nullary_bufs_sub .., nullary_bufs_sub .., unaryIndexed_bufs_sub .., binary_bufs_sub .., binary_bufs_sub ..,
    binary_bufs_sub .., binary_bufs_sub .., nullary_bufs_sub .., nullary_bufs_sub .., unary_bufs_sub .., binary_bufs_sub ..,
    unary_bufs_sub .., unary_bufs_sub .., binary_bufs_sub .., ternary_bufs_sub .., binary_bufs_sub ..⟩

/-- From any memory with zero counters: every weakly fair execution of @main terminates, and every final state
    has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The results -/

/-- All of @main's operations but the last, the concatenation. -/
abbrev opsInit : List (HloOp τ sig (Elt F)) :=
  [
    unary main_arg5 main_v0 (broadcastInDim S1000000x1 ![0] bcast_S1000000_S1000000x1_0 : (⟨S1000000, .f32⟩ : BufTy).Contents (Elt F) → (⟨S1000000x1, .f32⟩ : BufTy).Contents (Elt F)),
    nullary main_c (constantI S_ 32 0#32),
    unary main_c main_v1 (broadcastInDim S1000000 ![] bcast_S_S1000000 : (⟨S_, .i32⟩ : BufTy).Contents (Elt F) → (⟨S1000000, .i32⟩ : BufTy).Contents (Elt F)),
    binary main_arg10 main_v1 main_v2 (cmpi .slt : (⟨S1000000, .i32⟩ : BufTy).Contents (Elt F) → (⟨S1000000, .i32⟩ : BufTy).Contents (Elt F) → (⟨S1000000, .i1⟩ : BufTy).Contents (Elt F)),
    nullary main_c_0 (constantI S_ 32 200000#32),
    unary main_c_0 main_v3 (broadcastInDim S1000000 ![] bcast_S_S1000000 : (⟨S_, .i32⟩ : BufTy).Contents (Elt F) → (⟨S1000000, .i32⟩ : BufTy).Contents (Elt F)),
    binary main_arg10 main_v3 main_v4 (addi : (⟨S1000000, .i32⟩ : BufTy).Contents (Elt F) → (⟨S1000000, .i32⟩ : BufTy).Contents (Elt F) → (⟨S1000000, .i32⟩ : BufTy).Contents (Elt F)),
    ternary main_v2 main_v4 main_arg10 main_v5 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v5 main_v6 (broadcastInDim S1000000x1 ![0] bcast_S1000000_S1000000x1_0 : (⟨S1000000, .i32⟩ : BufTy).Contents (Elt F) → (⟨S1000000x1, .i32⟩ : BufTy).Contents (Elt F)),
    binary main_arg0 main_v6 main_v7 ((fun x i => Host.gather gather_S200000x128_S1000000x1_S1000000x128_1_0_n_n_0_1_1128 x i) : (⟨S200000x128, .f32⟩ : BufTy).Contents (Elt F) → (⟨S1000000x1, .i32⟩ : BufTy).Contents (Elt F) → (⟨S1000000x128, .f32⟩ : BufTy).Contents (Elt F)),
    unary main_v0 main_v8 (broadcastInDim S1000000x128 ![0, 1] bcast_S1000000x1_S1000000x128_0_1 : (⟨S1000000x1, .f32⟩ : BufTy).Contents (Elt F) → (⟨S1000000x128, .f32⟩ : BufTy).Contents (Elt F)),
    binary main_v8 main_v7 main_v9 (mulf : (⟨S1000000x128, .f32⟩ : BufTy).Contents (Elt F) → (⟨S1000000x128, .f32⟩ : BufTy).Contents (Elt F) → (⟨S1000000x128, .f32⟩ : BufTy).Contents (Elt F)),
    nullary main_cst (constant S_ .f32 0x00000000#32),
    unary main_cst main_v10 (broadcastInDim S100000x128 ![] bcast_S_S100000x128 : (⟨S_, .f32⟩ : BufTy).Contents (Elt F) → (⟨S100000x128, .f32⟩ : BufTy).Contents (Elt F)),
    unary main_arg9 main_v11 (broadcastInDim S1000000x1 ![0] bcast_S1000000_S1000000x1_0 : (⟨S1000000, .i32⟩ : BufTy).Contents (Elt F) → (⟨S1000000x1, .i32⟩ : BufTy).Contents (Elt F)),
    ternary main_v10 main_v11 main_v9 main_v12 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    unary main_arg6 main_v13 (broadcastInDim S1000000x1 ![0] bcast_S1000000_S1000000x1_0 : (⟨S1000000, .f32⟩ : BufTy).Contents (Elt F) → (⟨S1000000x1, .f32⟩ : BufTy).Contents (Elt F)),
    nullary main_c_1 (constantI S_ 32 0#32),
    unary main_c_1 main_v14 (broadcastInDim S1000000 ![] bcast_S_S1000000 : (⟨S_, .i32⟩ : BufTy).Contents (Elt F) → (⟨S1000000, .i32⟩ : BufTy).Contents (Elt F)),
    binary main_arg12 main_v14 main_v15 (cmpi .slt : (⟨S1000000, .i32⟩ : BufTy).Contents (Elt F) → (⟨S1000000, .i32⟩ : BufTy).Contents (Elt F) → (⟨S1000000, .i1⟩ : BufTy).Contents (Elt F)),
    nullary main_c_2 (constantI S_ 32 200000#32),
    unary main_c_2 main_v16 (broadcastInDim S1000000 ![] bcast_S_S1000000 : (⟨S_, .i32⟩ : BufTy).Contents (Elt F) → (⟨S1000000, .i32⟩ : BufTy).Contents (Elt F)),
    binary main_arg12 main_v16 main_v17 (addi : (⟨S1000000, .i32⟩ : BufTy).Contents (Elt F) → (⟨S1000000, .i32⟩ : BufTy).Contents (Elt F) → (⟨S1000000, .i32⟩ : BufTy).Contents (Elt F)),
    ternary main_v15 main_v17 main_arg12 main_v18 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v18 main_v19 (broadcastInDim S1000000x1 ![0] bcast_S1000000_S1000000x1_0 : (⟨S1000000, .i32⟩ : BufTy).Contents (Elt F) → (⟨S1000000x1, .i32⟩ : BufTy).Contents (Elt F)),
    binary main_arg0 main_v19 main_v20 ((fun x i => Host.gather gather_S200000x128_S1000000x1_S1000000x128_1_0_n_n_0_1_1128 x i) : (⟨S200000x128, .f32⟩ : BufTy).Contents (Elt F) → (⟨S1000000x1, .i32⟩ : BufTy).Contents (Elt F) → (⟨S1000000x128, .f32⟩ : BufTy).Contents (Elt F)),
    unary main_v13 main_v21 (broadcastInDim S1000000x128 ![0, 1] bcast_S1000000x1_S1000000x128_0_1 : (⟨S1000000x1, .f32⟩ : BufTy).Contents (Elt F) → (⟨S1000000x128, .f32⟩ : BufTy).Contents (Elt F)),
    binary main_v21 main_v20 main_v22 (mulf : (⟨S1000000x128, .f32⟩ : BufTy).Contents (Elt F) → (⟨S1000000x128, .f32⟩ : BufTy).Contents (Elt F) → (⟨S1000000x128, .f32⟩ : BufTy).Contents (Elt F)),
    nullary main_cst_3 (constant S_ .f32 0x00000000#32),
    unary main_cst_3 main_v23 (broadcastInDim S100000x128 ![] bcast_S_S100000x128 : (⟨S_, .f32⟩ : BufTy).Contents (Elt F) → (⟨S100000x128, .f32⟩ : BufTy).Contents (Elt F)),
    unary main_arg11 main_v24 (broadcastInDim S1000000x1 ![0] bcast_S1000000_S1000000x1_0 : (⟨S1000000, .i32⟩ : BufTy).Contents (Elt F) → (⟨S1000000x1, .i32⟩ : BufTy).Contents (Elt F)),
    ternary main_v23 main_v24 main_v22 main_v25 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    nullary main_c_4 (constantI S_ 32 0#32),
    nullary main_c_5 (constantI S_ 32 0#32),
    unaryIndexed main_arg0 ![main_c_4, main_c_5] ⟨S_, .i32⟩ main_v26 ((fun x i => Host.dynamicSlice S100000x128 x (fun k => (i k (Shape.Idx.first h_S_)).toInt) sliceFits_S200000x128_S100000x128) : (⟨S200000x128, .f32⟩ : BufTy).Contents (Elt F) → (Fin 2 → (⟨S_, .i32⟩ : BufTy).Contents (Elt F)) → (⟨S100000x128, .f32⟩ : BufTy).Contents (Elt F)),
    binary main_v12 main_arg1 main_v27 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v25 main_v26 main_v28 (mulf : (⟨S100000x128, .f32⟩ : BufTy).Contents (Elt F) → (⟨S100000x128, .f32⟩ : BufTy).Contents (Elt F) → (⟨S100000x128, .f32⟩ : BufTy).Contents (Elt F)),
    binary main_v28 main_arg2 main_v29 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v27 main_v29 main_v30 (addf : (⟨S100000x128, .f32⟩ : BufTy).Contents (Elt F) → (⟨S100000x128, .f32⟩ : BufTy).Contents (Elt F) → (⟨S100000x128, .f32⟩ : BufTy).Contents (Elt F)),
    nullary main_cst_6 (constant S_ .f32 0x3E4CCCCD#32),
    TRef.nullary main_call0.cst (constant S_ .f32 0x00000000#32),
    TRef.unary main_call0.cst main_call0.v0 (broadcastInDim S100000x128 ![] bcast_S_S100000x128),
    TRef.binary (.of main_v30) main_call0.v0 main_call0.v1 (cmpf .oge),
    TRef.unary (.of main_cst_6) main_call0.v2 id,
    TRef.unary main_call0.v2 main_call0.v3 (broadcastInDim S100000x128 ![] bcast_S_S100000x128),
    TRef.binary main_call0.v3 (.of main_v30) main_call0.v4 mulf,
    TRef.ternary main_call0.v1 (.of main_v30) main_call0.v4 main_call0.call0.v0 select,
    unary main_arg7 main_v32 (broadcastInDim S1000000x1 ![0] bcast_S1000000_S1000000x1_0 : (⟨S1000000, .f32⟩ : BufTy).Contents (Elt F) → (⟨S1000000x1, .f32⟩ : BufTy).Contents (Elt F)),
    nullary main_c_7 (constantI S_ 32 0#32),
    unary main_c_7 main_v33 (broadcastInDim S1000000 ![] bcast_S_S1000000 : (⟨S_, .i32⟩ : BufTy).Contents (Elt F) → (⟨S1000000, .i32⟩ : BufTy).Contents (Elt F)),
    binary main_arg14 main_v33 main_v34 (cmpi .slt : (⟨S1000000, .i32⟩ : BufTy).Contents (Elt F) → (⟨S1000000, .i32⟩ : BufTy).Contents (Elt F) → (⟨S1000000, .i1⟩ : BufTy).Contents (Elt F)),
    nullary main_c_8 (constantI S_ 32 200000#32),
    unary main_c_8 main_v35 (broadcastInDim S1000000 ![] bcast_S_S1000000 : (⟨S_, .i32⟩ : BufTy).Contents (Elt F) → (⟨S1000000, .i32⟩ : BufTy).Contents (Elt F)),
    binary main_arg14 main_v35 main_v36 (addi : (⟨S1000000, .i32⟩ : BufTy).Contents (Elt F) → (⟨S1000000, .i32⟩ : BufTy).Contents (Elt F) → (⟨S1000000, .i32⟩ : BufTy).Contents (Elt F)),
    ternary main_v34 main_v36 main_arg14 main_v37 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v37 main_v38 (broadcastInDim S1000000x1 ![0] bcast_S1000000_S1000000x1_0 : (⟨S1000000, .i32⟩ : BufTy).Contents (Elt F) → (⟨S1000000x1, .i32⟩ : BufTy).Contents (Elt F)),
    binary main_arg0 main_v38 main_v39 ((fun x i => Host.gather gather_S200000x128_S1000000x1_S1000000x128_1_0_n_n_0_1_1128 x i) : (⟨S200000x128, .f32⟩ : BufTy).Contents (Elt F) → (⟨S1000000x1, .i32⟩ : BufTy).Contents (Elt F) → (⟨S1000000x128, .f32⟩ : BufTy).Contents (Elt F)),
    unary main_v32 main_v40 (broadcastInDim S1000000x128 ![0, 1] bcast_S1000000x1_S1000000x128_0_1 : (⟨S1000000x1, .f32⟩ : BufTy).Contents (Elt F) → (⟨S1000000x128, .f32⟩ : BufTy).Contents (Elt F)),
    binary main_v40 main_v39 main_v41 (mulf : (⟨S1000000x128, .f32⟩ : BufTy).Contents (Elt F) → (⟨S1000000x128, .f32⟩ : BufTy).Contents (Elt F) → (⟨S1000000x128, .f32⟩ : BufTy).Contents (Elt F)),
    nullary main_cst_9 (constant S_ .f32 0x00000000#32),
    unary main_cst_9 main_v42 (broadcastInDim S100000x128 ![] bcast_S_S100000x128 : (⟨S_, .f32⟩ : BufTy).Contents (Elt F) → (⟨S100000x128, .f32⟩ : BufTy).Contents (Elt F)),
    unary main_arg13 main_v43 (broadcastInDim S1000000x1 ![0] bcast_S1000000_S1000000x1_0 : (⟨S1000000, .i32⟩ : BufTy).Contents (Elt F) → (⟨S1000000x1, .i32⟩ : BufTy).Contents (Elt F)),
    ternary main_v42 main_v43 main_v41 main_v44 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    unary main_arg8 main_v45 (broadcastInDim S1000000x1 ![0] bcast_S1000000_S1000000x1_0 : (⟨S1000000, .f32⟩ : BufTy).Contents (Elt F) → (⟨S1000000x1, .f32⟩ : BufTy).Contents (Elt F)),
    nullary main_c_10 (constantI S_ 32 0#32),
    unary main_c_10 main_v46 (broadcastInDim S1000000 ![] bcast_S_S1000000 : (⟨S_, .i32⟩ : BufTy).Contents (Elt F) → (⟨S1000000, .i32⟩ : BufTy).Contents (Elt F)),
    binary main_arg16 main_v46 main_v47 (cmpi .slt : (⟨S1000000, .i32⟩ : BufTy).Contents (Elt F) → (⟨S1000000, .i32⟩ : BufTy).Contents (Elt F) → (⟨S1000000, .i1⟩ : BufTy).Contents (Elt F)),
    nullary main_c_11 (constantI S_ 32 200000#32),
    unary main_c_11 main_v48 (broadcastInDim S1000000 ![] bcast_S_S1000000 : (⟨S_, .i32⟩ : BufTy).Contents (Elt F) → (⟨S1000000, .i32⟩ : BufTy).Contents (Elt F)),
    binary main_arg16 main_v48 main_v49 (addi : (⟨S1000000, .i32⟩ : BufTy).Contents (Elt F) → (⟨S1000000, .i32⟩ : BufTy).Contents (Elt F) → (⟨S1000000, .i32⟩ : BufTy).Contents (Elt F)),
    ternary main_v47 main_v49 main_arg16 main_v50 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v50 main_v51 (broadcastInDim S1000000x1 ![0] bcast_S1000000_S1000000x1_0 : (⟨S1000000, .i32⟩ : BufTy).Contents (Elt F) → (⟨S1000000x1, .i32⟩ : BufTy).Contents (Elt F)),
    binary main_arg0 main_v51 main_v52 ((fun x i => Host.gather gather_S200000x128_S1000000x1_S1000000x128_1_0_n_n_0_1_1128 x i) : (⟨S200000x128, .f32⟩ : BufTy).Contents (Elt F) → (⟨S1000000x1, .i32⟩ : BufTy).Contents (Elt F) → (⟨S1000000x128, .f32⟩ : BufTy).Contents (Elt F)),
    unary main_v45 main_v53 (broadcastInDim S1000000x128 ![0, 1] bcast_S1000000x1_S1000000x128_0_1 : (⟨S1000000x1, .f32⟩ : BufTy).Contents (Elt F) → (⟨S1000000x128, .f32⟩ : BufTy).Contents (Elt F)),
    binary main_v53 main_v52 main_v54 (mulf : (⟨S1000000x128, .f32⟩ : BufTy).Contents (Elt F) → (⟨S1000000x128, .f32⟩ : BufTy).Contents (Elt F) → (⟨S1000000x128, .f32⟩ : BufTy).Contents (Elt F)),
    nullary main_cst_12 (constant S_ .f32 0x00000000#32),
    unary main_cst_12 main_v55 (broadcastInDim S100000x128 ![] bcast_S_S100000x128 : (⟨S_, .f32⟩ : BufTy).Contents (Elt F) → (⟨S100000x128, .f32⟩ : BufTy).Contents (Elt F)),
    unary main_arg15 main_v56 (broadcastInDim S1000000x1 ![0] bcast_S1000000_S1000000x1_0 : (⟨S1000000, .i32⟩ : BufTy).Contents (Elt F) → (⟨S1000000x1, .i32⟩ : BufTy).Contents (Elt F)),
    ternary main_v55 main_v56 main_v54 main_v57 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    nullary main_c_13 (constantI S_ 32 100000#32),
    nullary main_c_14 (constantI S_ 32 0#32),
    unaryIndexed main_arg0 ![main_c_13, main_c_14] ⟨S_, .i32⟩ main_v58 ((fun x i => Host.dynamicSlice S100000x128 x (fun k => (i k (Shape.Idx.first h_S_)).toInt) sliceFits_S200000x128_S100000x128) : (⟨S200000x128, .f32⟩ : BufTy).Contents (Elt F) → (Fin 2 → (⟨S_, .i32⟩ : BufTy).Contents (Elt F)) → (⟨S100000x128, .f32⟩ : BufTy).Contents (Elt F)),
    binary main_v44 main_arg3 main_v59 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v57 main_v58 main_v60 (mulf : (⟨S100000x128, .f32⟩ : BufTy).Contents (Elt F) → (⟨S100000x128, .f32⟩ : BufTy).Contents (Elt F) → (⟨S100000x128, .f32⟩ : BufTy).Contents (Elt F)),
    binary main_v60 main_arg4 main_v61 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v59 main_v61 main_v62 (addf : (⟨S100000x128, .f32⟩ : BufTy).Contents (Elt F) → (⟨S100000x128, .f32⟩ : BufTy).Contents (Elt F) → (⟨S100000x128, .f32⟩ : BufTy).Contents (Elt F)),
    nullary main_cst_15 (constant S_ .f32 0x3E4CCCCD#32),
    TRef.nullary main_call1.cst (constant S_ .f32 0x00000000#32),
    TRef.unary main_call1.cst main_call1.v0 (broadcastInDim S100000x128 ![] bcast_S_S100000x128),
    TRef.binary (.of main_v62) main_call1.v0 main_call1.v1 (cmpf .oge),
    TRef.unary (.of main_cst_15) main_call1.v2 id,
    TRef.unary main_call1.v2 main_call1.v3 (broadcastInDim S100000x128 ![] bcast_S_S100000x128),
    TRef.binary main_call1.v3 (.of main_v62) main_call1.v4 mulf,
    TRef.ternary main_call1.v1 (.of main_v62) main_call1.v4 main_call1.call0.v0 select ]

/-- @main's last operation: the two sides' results, one above the other. -/
abbrev opLast : HloOp τ sig (Elt F) :=
  binary main_v31 main_v63 main_v64 ((fun a b => concatenate S200000x128 0 [⟨S100000x128, a⟩, ⟨S100000x128, b⟩] concatenates_S100000x128_S100000x128_S200000x128_d0) : (⟨S100000x128, .f32⟩ : BufTy).Contents (Elt F) → (⟨S100000x128, .f32⟩ : BufTy).Contents (Elt F) → (⟨S200000x128, .f32⟩ : BufTy).Contents (Elt F))

theorem ops_split : (ops : List (HloOp τ sig (Elt F))) = opsInit ++ [opLast] := rfl

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- `unaryIndexed` over a LITERAL pair of index references: the result with each index operand's contents AT ITS
    OWN REFERENCE — `![… ↑i0, … ↑i1]` in place of `fun k => … ↑(![i0, i1] k)` —, so that the operands' contents
    go on being rewritten: under the binder the reference `![i0, i1] k` is no literal. -/
theorem unaryIndexed2_result' {τ' : Topo} {sig' : RefSig} {Val : EltTy → Type} {a i0 i1 y : Ref sig' .tc} (T : BufTy)
    (f : a.ty.Contents Val → (Fin 2 → T.Contents Val) → y.ty.Contents Val) (hT ha hix hy) (V : Valuation τ' sig' Val) :
    (unaryIndexed (τ := τ') a ![i0, i1] T y f hT ha hix hy).result V (no_index (Proc.devRef .tc y))
      = f (V (Proc.devRef .tc a)) ![cast (congrArg (fun U : BufTy => U.Contents Val) (hT 0)) (V (Proc.devRef .tc i0)),
          cast (congrArg (fun U : BufTy => U.Contents Val) (hT 1)) (V (Proc.devRef .tc i1))] := by
  rw [unaryIndexed_result]; congr 1; funext k; fin_cases k <;> rfl

attribute [local irreducible] Host.gather Host.scatterAdd Host.dynamicSlice in
set_option maxRecDepth 8192 in
set_option maxHeartbeats 40000000 in
/-- The first side's result buffer holds `fold 0`: each operation's result at its own buffer is its function's
    value, at any other buffer what was there; what is left is `fold`'s body (the typed references' casts are
    the identity at these literal references, and `id` of the slope is the slope). The gather, the scatter and
    the slice stay folded: the equation never looks inside them. -/
theorem v31_eq (V : Valuation τ sig (Elt F)) :
    after opsInit V (main_v31 : DevRef τ sig)
      = fold 0#32 (V (main_arg0 : DevRef τ sig)) (spmm (V (main_arg0 : DevRef τ sig)) (V (main_arg5 : DevRef τ sig)) (V (main_arg9 : DevRef τ sig)) (V (main_arg10 : DevRef τ sig)))
          (spmm (V (main_arg0 : DevRef τ sig)) (V (main_arg6 : DevRef τ sig)) (V (main_arg11 : DevRef τ sig)) (V (main_arg12 : DevRef τ sig))) (V (main_arg1 : DevRef τ sig)) (V (main_arg2 : DevRef τ sig)) := by
  simp (disch := decide) only [after_cons, after_nil, nullary_result', unary_result', binary_result', ternary_result', unaryIndexed2_result',
    nullary_result_ne', unary_result_ne', binary_result_ne', ternary_result_ne', unaryIndexed_result_ne']
  rfl

attribute [local irreducible] Host.gather Host.scatterAdd Host.dynamicSlice in
set_option maxRecDepth 8192 in
set_option maxHeartbeats 40000000 in
/-- The second side's result buffer holds `fold 100000`, likewise. -/
theorem v63_eq (V : Valuation τ sig (Elt F)) :
    after opsInit V (main_v63 : DevRef τ sig)
      = fold 100000#32 (V (main_arg0 : DevRef τ sig)) (spmm (V (main_arg0 : DevRef τ sig)) (V (main_arg7 : DevRef τ sig)) (V (main_arg13 : DevRef τ sig)) (V (main_arg14 : DevRef τ sig)))
          (spmm (V (main_arg0 : DevRef τ sig)) (V (main_arg8 : DevRef τ sig)) (V (main_arg15 : DevRef τ sig)) (V (main_arg16 : DevRef τ sig))) (V (main_arg3 : DevRef τ sig)) (V (main_arg4 : DevRef τ sig)) := by
  simp (disch := decide) only [after_cons, after_nil, nullary_result', unary_result', binary_result', ternary_result', unaryIndexed2_result',
    nullary_result_ne', unary_result_ne', binary_result_ne', ternary_result_ne', unaryIndexed_result_ne']
  rfl

/-- The last operation concatenates what the two sides' result buffers hold. -/
theorem last_eq (W : Valuation τ sig (Elt F)) :
    after [opLast] W (main_v64 : DevRef τ sig)
      = concatenate S200000x128 0 [⟨S100000x128, W (main_v31 : DevRef τ sig)⟩, ⟨S100000x128, W (main_v63 : DevRef τ sig)⟩]
        concatenates_S100000x128_S100000x128_S200000x128_d0 := by
  simp only [after_cons, after_nil, binary_result']

set_option maxHeartbeats 4000000 in
/-- The result buffer holds `out`: the concatenation of the two sides' `fold`s. -/
theorem out_eq (V : Valuation τ sig (Elt F)) :
    after ops V (main_v64 : DevRef τ sig)
      = out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) := by
  rw [ops_split, after_append, last_eq, v31_eq, v63_eq]
  rfl

set_option maxRecDepth 8192 in
set_option maxHeartbeats 4000000 in
theorem arg0_eq (V : Valuation τ sig (Elt F)) : after ops V (main_arg0 : DevRef τ sig) = V (main_arg0 : DevRef τ sig) := by
  simp (disch := decide) only [after_cons, after_nil, nullary_result_ne', unary_result_ne', binary_result_ne', ternary_result_ne', unaryIndexed_result_ne']

set_option maxRecDepth 8192 in
set_option maxHeartbeats 4000000 in
theorem arg1_eq (V : Valuation τ sig (Elt F)) : after ops V (main_arg1 : DevRef τ sig) = V (main_arg1 : DevRef τ sig) := by
  simp (disch := decide) only [after_cons, after_nil, nullary_result_ne', unary_result_ne', binary_result_ne', ternary_result_ne', unaryIndexed_result_ne']

set_option maxRecDepth 8192 in
set_option maxHeartbeats 4000000 in
theorem arg2_eq (V : Valuation τ sig (Elt F)) : after ops V (main_arg2 : DevRef τ sig) = V (main_arg2 : DevRef τ sig) := by
  simp (disch := decide) only [after_cons, after_nil, nullary_result_ne', unary_result_ne', binary_result_ne', ternary_result_ne', unaryIndexed_result_ne']

set_option maxRecDepth 8192 in
set_option maxHeartbeats 4000000 in
theorem arg3_eq (V : Valuation τ sig (Elt F)) : after ops V (main_arg3 : DevRef τ sig) = V (main_arg3 : DevRef τ sig) := by
  simp (disch := decide) only [after_cons, after_nil, nullary_result_ne', unary_result_ne', binary_result_ne', ternary_result_ne', unaryIndexed_result_ne']

set_option maxRecDepth 8192 in
set_option maxHeartbeats 4000000 in
theorem arg4_eq (V : Valuation τ sig (Elt F)) : after ops V (main_arg4 : DevRef τ sig) = V (main_arg4 : DevRef τ sig) := by
  simp (disch := decide) only [after_cons, after_nil, nullary_result_ne', unary_result_ne', binary_result_ne', ternary_result_ne', unaryIndexed_result_ne']

set_option maxRecDepth 8192 in
set_option maxHeartbeats 4000000 in
theorem arg5_eq (V : Valuation τ sig (Elt F)) : after ops V (main_arg5 : DevRef τ sig) = V (main_arg5 : DevRef τ sig) := by
  simp (disch := decide) only [after_cons, after_nil, nullary_result_ne', unary_result_ne', binary_result_ne', ternary_result_ne', unaryIndexed_result_ne']

set_option maxRecDepth 8192 in
set_option maxHeartbeats 4000000 in
theorem arg6_eq (V : Valuation τ sig (Elt F)) : after ops V (main_arg6 : DevRef τ sig) = V (main_arg6 : DevRef τ sig) := by
  simp (disch := decide) only [after_cons, after_nil, nullary_result_ne', unary_result_ne', binary_result_ne', ternary_result_ne', unaryIndexed_result_ne']

set_option maxRecDepth 8192 in
set_option maxHeartbeats 4000000 in
theorem arg7_eq (V : Valuation τ sig (Elt F)) : after ops V (main_arg7 : DevRef τ sig) = V (main_arg7 : DevRef τ sig) := by
  simp (disch := decide) only [after_cons, after_nil, nullary_result_ne', unary_result_ne', binary_result_ne', ternary_result_ne', unaryIndexed_result_ne']

set_option maxRecDepth 8192 in
set_option maxHeartbeats 4000000 in
theorem arg8_eq (V : Valuation τ sig (Elt F)) : after ops V (main_arg8 : DevRef τ sig) = V (main_arg8 : DevRef τ sig) := by
  simp (disch := decide) only [after_cons, after_nil, nullary_result_ne', unary_result_ne', binary_result_ne', ternary_result_ne', unaryIndexed_result_ne']

set_option maxRecDepth 8192 in
set_option maxHeartbeats 4000000 in
theorem arg9_eq (V : Valuation τ sig (Elt F)) : after ops V (main_arg9 : DevRef τ sig) = V (main_arg9 : DevRef τ sig) := by
  simp (disch := decide) only [after_cons, after_nil, nullary_result_ne', unary_result_ne', binary_result_ne', ternary_result_ne', unaryIndexed_result_ne']

set_option maxRecDepth 8192 in
set_option maxHeartbeats 4000000 in
theorem arg10_eq (V : Valuation τ sig (Elt F)) : after ops V (main_arg10 : DevRef τ sig) = V (main_arg10 : DevRef τ sig) := by
  simp (disch := decide) only [after_cons, after_nil, nullary_result_ne', unary_result_ne', binary_result_ne', ternary_result_ne', unaryIndexed_result_ne']

set_option maxRecDepth 8192 in
set_option maxHeartbeats 4000000 in
theorem arg11_eq (V : Valuation τ sig (Elt F)) : after ops V (main_arg11 : DevRef τ sig) = V (main_arg11 : DevRef τ sig) := by
  simp (disch := decide) only [after_cons, after_nil, nullary_result_ne', unary_result_ne', binary_result_ne', ternary_result_ne', unaryIndexed_result_ne']

set_option maxRecDepth 8192 in
set_option maxHeartbeats 4000000 in
theorem arg12_eq (V : Valuation τ sig (Elt F)) : after ops V (main_arg12 : DevRef τ sig) = V (main_arg12 : DevRef τ sig) := by
  simp (disch := decide) only [after_cons, after_nil, nullary_result_ne', unary_result_ne', binary_result_ne', ternary_result_ne', unaryIndexed_result_ne']

set_option maxRecDepth 8192 in
set_option maxHeartbeats 4000000 in
theorem arg13_eq (V : Valuation τ sig (Elt F)) : after ops V (main_arg13 : DevRef τ sig) = V (main_arg13 : DevRef τ sig) := by
  simp (disch := decide) only [after_cons, after_nil, nullary_result_ne', unary_result_ne', binary_result_ne', ternary_result_ne', unaryIndexed_result_ne']

set_option maxRecDepth 8192 in
set_option maxHeartbeats 4000000 in
theorem arg14_eq (V : Valuation τ sig (Elt F)) : after ops V (main_arg14 : DevRef τ sig) = V (main_arg14 : DevRef τ sig) := by
  simp (disch := decide) only [after_cons, after_nil, nullary_result_ne', unary_result_ne', binary_result_ne', ternary_result_ne', unaryIndexed_result_ne']

set_option maxRecDepth 8192 in
set_option maxHeartbeats 4000000 in
theorem arg15_eq (V : Valuation τ sig (Elt F)) : after ops V (main_arg15 : DevRef τ sig) = V (main_arg15 : DevRef τ sig) := by
  simp (disch := decide) only [after_cons, after_nil, nullary_result_ne', unary_result_ne', binary_result_ne', ternary_result_ne', unaryIndexed_result_ne']

set_option maxRecDepth 8192 in
set_option maxHeartbeats 4000000 in
theorem arg16_eq (V : Valuation τ sig (Elt F)) : after ops V (main_arg16 : DevRef τ sig) = V (main_arg16 : DevRef τ sig) := by
  simp (disch := decide) only [after_cons, after_nil, nullary_result_ne', unary_result_ne', binary_result_ne', ternary_result_ne', unaryIndexed_result_ne']

/-- On every device, for any float values, from any memory with zero counters: every weakly fair execution of
    @main terminates with the result at `out` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v64) = out (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v64).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _),
      (h c main_arg15).trans (arg15_eq _),
      (h c main_arg16).trans (arg16_eq _)⟩)
    (run_main m ρ)

end Cert.ReferenceIdeal.RefRun

end
-- ==== Proof.RefPieces.lean ====
/-
  The reference's operations read at an index, at the extended reals: its matrix product as a sum over the contracted
  coordinate, its block of 100000 table rows starting at row 0 or at row 100000 as the table read 0 or 100000 rows further
  down, and its gate (the test `x ≥ 0`) as the strict gate.
-/
import proofs.«101847_j11192684773414_2_alg».proof.Proof.Gen.ReferenceIdeal
import proofs.«101847_j11192684773414_2_alg».proof.Proof.Spec
import Idealize.ShloMosaic.Lib.DynamicIndex
import Idealize.ShloMosaic.Lib.StackMember

noncomputable section

namespace Cert.ReferenceIdeal.RefPieces

open Cert.ReferenceIdeal Cert.ReferenceIdeal.Gen Idealize.ShloMosaic Idealize.ShloMosaic.TcCoe Idealize.SL.Sem
open Idealize.ShloMosaic.ValueIdx Cert.GateSpec

/-- The reference's product contracts the left operand's columns with the right operand's rows: the plain product. -/
theorem dot_plain : dot_S100000x128_S128x128_S100000x128_1_0_0_1_n_n = DotDims.plain 100000 128 128 := rfl

/-- The product read at an entry: the sum over the contracted coordinate. -/
theorem dot_apply (A : FVec Ideal S100000x128 .f32) (B : FVec Ideal S128x128 .f32) (r : Fin 100000) (j : Fin 128) :
    Host.dotGeneral dot_S100000x128_S128x128_S100000x128_1_0_0_1_n_n none A B (ix2 r j) = ∑ k : Fin 128, A (ix2 r k) * B (ix2 k j) := by
  rw [dot_plain]
  exact StackMember.dotGeneral_plain_apply none A B r j

/-- The 100000 rows of the table from row `s` on (`s` is 0 or 100000, so the block lies inside the table and the
    start is not clamped), read at (r, k): the table at (s + r, k). -/
theorem rows_apply (tab : FVec Ideal S200000x128 .f32) (s : BitVec 32) (n : Nat) (hn : n + 100000 ≤ 200000) (hs : s.toInt = (n : Int))
    (r : Fin 100000) (k : Fin 128) (R : Fin 200000) (hR : R.val = n + r.val) :
    Host.dynamicSlice S100000x128 tab
        (fun a => ((![constantI S_ 32 s, constantI S_ 32 0#32] : Fin 2 → (⟨S_, .i32⟩ : BufTy).Contents (Elt Ideal)) a (Shape.Idx.first h_S_)).toInt)
        sliceFits_S200000x128_S100000x128 (ix2 r k)
      = tab (ix2 R k) := by
  have hoff : S200000x128.Slices ![n, 0] S100000x128 := by
    refine ⟨rfl, fun a => ?_⟩
    match a with
    | ⟨0, _⟩ => show n + 100000 ≤ 200000; exact hn
    | ⟨1, _⟩ => show 0 + 128 ≤ 128; omega
  rw [Host.dynamicSlice_eq_extractStridedSlice S100000x128 tab _ ![n, 0] sliceFits_S200000x128_S100000x128 hoff (fun a => by
    match a with
    | ⟨0, _⟩ => show s.toInt = (n : Int); exact hs
    | ⟨1, _⟩ => show (0#32 : BitVec 32).toInt = ((0 : Nat) : Int); rfl)]
  refine extractStridedSlice_apply ![n, 0] tab hoff (ix2 r k) (ix2 R k) ?_
  intro a
  match a with
  | ⟨0, _⟩ => show R.val = n + r.val; exact hR
  | ⟨1, _⟩ => show k.val = 0 + k.val; omega

/-- The reference's gate of an array, read at an index: the strict gate of the entry. -/
theorem leaky_apply (x : FVec Ideal S100000x128 .f32) (i : S100000x128.Idx) :
    select (cmpf .oge x (broadcastInDim S100000x128 ![] bcast_S_S100000x128 (constant (F := Ideal) S_ .f32 0x00000000#32))) x
        (mulf (broadcastInDim S100000x128 ![] bcast_S_S100000x128 (constant (F := Ideal) S_ .f32 0x3E4CCCCD#32)) x) i
      = gate (x i) :=
  gate_oge (x i)

end Cert.ReferenceIdeal.RefPieces

end
-- ==== Proof.RefValue.lean ====
/-
  The reference's result is the layer `G` of the argument arrays and the four sparse aggregates.

  The reference treats the users' and the items' rows one family at a time — two matrix products of 100000 rows each, the
  family's 100000 rows of the table taken from row 0 or from row 100000, the gate with the test `x ≥ 0` — and joins the
  two results along the rows.  Read at an index, each family's entry is `entry` of the specification (a product is the
  sum over the contracted coordinate; the test `x ≥ 0` gates as `x > 0` does), and the join picks the family by the row.
-/
import proofs.«101847_j11192684773414_2_alg».proof.Proof.RefRun
import proofs.«101847_j11192684773414_2_alg».proof.Proof.RefPieces

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.GateSpec Cert.ReferenceIdeal.RefPieces

/-- One family's result at (r, j): the specification's entry, with the family's table rows starting at row `n`. -/
theorem fold_apply (start : BitVec 32) (n : Nat) (hn : n + 100000 ≤ 200000) (hs : start.toInt = (n : Int))
    (tab : FVec Ideal S200000x128 .f32) (LI L : FVec Ideal S100000x128 .f32) (Ws Wd : FVec Ideal S128x128 .f32)
    (r : Fin 100000) (j : Fin 128) (R : Fin 200000) (hR : R.val = n + r.val) :
    RefRun.fold (F := Ideal) start tab LI L Ws Wd (ix2 r j) = entry tab LI L Ws Wd r R j := by
  unfold RefRun.fold RefRun.leaky
  refine (leaky_apply _ (ix2 r j)).trans ?_
  unfold entry
  refine congrArg gate ?_
  refine (addf_apply _ _ (ix2 r j)).trans ?_
  refine congrArg₂ (· + ·) (dot_apply LI Ws r j) ((dot_apply _ Wd r j).trans (Finset.sum_congr rfl fun k _ => ?_))
  refine congrArg (fun z => z * Wd (ix2 k j)) ((mulf_apply _ _ (ix2 r k)).trans (congrArg (fun z => L (ix2 r k) * z) ?_))
  exact rows_apply tab start n hn hs r k R hR

/-- The reference's result array is the layer of the table, the four aggregates and the four weights. -/
theorem out_eq (a0 : FVec Ideal S200000x128 .f32) (a1 a2 a3 a4 : FVec Ideal S128x128 .f32) (a5 a6 a7 a8 : FVec Ideal S1000000 .f32)
    (a9 a10 a11 a12 a13 a14 a15 a16 : IVec S1000000 32) :
    RefRun.out (F := Ideal) a0 a1 a2 a3 a4 a5 a6 a7 a8 a9 a10 a11 a12 a13 a14 a15 a16
      = G a0 (RefRun.spmm (F := Ideal) a0 a5 a9 a10) (RefRun.spmm (F := Ideal) a0 a7 a13 a14) (RefRun.spmm (F := Ideal) a0 a6 a11 a12)
          (RefRun.spmm (F := Ideal) a0 a8 a15 a16) a1 a3 a2 a4 := by
  funext i
  have h0 := idx2_lt0 i
  have h1 := idx2_lt1 i
  unfold RefRun.out G
  by_cases h : (i 0).val < 100000
  · rw [dif_pos h]
    refine (concatenate_pair_apply_left (t := S200000x128) (s₁ := S100000x128) (s₂ := S100000x128) (0 : Fin 2) _ _
      concatenates_S100000x128_S100000x128_S200000x128_d0 i rfl (ix2 ⟨(i 0).val, h⟩ ⟨(i 1).val, h1⟩) ?_).trans ?_
    · intro b
      match b with
      | ⟨0, _⟩ => rfl
      | ⟨1, _⟩ => rfl
    · exact fold_apply 0#32 0 (by norm_num) rfl a0 _ _ a1 a2 ⟨(i 0).val, h⟩ ⟨(i 1).val, h1⟩ ⟨(i 0).val, h0⟩
        (by show (i 0).val = 0 + (i 0).val; omega)
  · rw [dif_neg h]
    refine (concatenate_pair_apply_right (t := S200000x128) (s₁ := S100000x128) (s₂ := S100000x128) (0 : Fin 2) _ _
      concatenates_S100000x128_S100000x128_S200000x128_d0 i rfl rfl (ix2 ⟨(i 0).val - 100000, by omega⟩ ⟨(i 1).val, h1⟩) ?_ ?_).trans ?_
    · intro b hne
      match b with
      | ⟨0, _⟩ => exact absurd rfl hne
      | ⟨1, _⟩ => rfl
    · show ((i 0).val - 100000) + 100000 = (i 0).val
      omega
    · exact fold_apply 100000#32 100000 (by norm_num) (by decide) a0 _ _ a3 a4 ⟨(i 0).val - 100000, by omega⟩ ⟨(i 1).val, h1⟩ ⟨(i 0).val, h0⟩
        (by show (i 0).val = 100000 + ((i 0).val - 100000); omega)

end Cert.ReferenceIdeal.RefValue

end
-- ==== Proof.Bridge.lean ====
/-
  The two programs' sparse aggregates are one function at the extended reals: they apply the same gather, scaling and
  row-wise summation to the same arrays; the kernel's program only passes the table through a narrower float format
  before the gather and back after it, and a change of float format is the identity at the extended reals.
-/
import proofs.«101847_j11192684773414_2_alg».proof.Proof.KernelHost
import proofs.«101847_j11192684773414_2_alg».proof.Proof.RefRun
import Idealize.ShloMosaic.PureOps.Ideal

noncomputable section

namespace Cert.Bridge

open Idealize.ShloMosaic Idealize.ShloMosaic.TcCoe Idealize.SL.Sem

attribute [local irreducible] Host.gather Host.scatterAdd in
/-- The kernel's sparse aggregate is the reference's. -/
theorem spmm_eq (tab : FVec Ideal ⟨2, ![200000, 128]⟩ .f32) (vals : FVec Ideal ⟨1, ![1000000]⟩ .f32) (rows cols : IVec ⟨1, ![1000000]⟩ 32) :
    Cert.KernelIdeal.GateHost.spmm (F := Ideal) tab vals rows cols = Cert.ReferenceIdeal.RefRun.spmm (F := Ideal) tab vals rows cols := by
  unfold Cert.KernelIdeal.GateHost.spmm Cert.ReferenceIdeal.RefRun.spmm Cert.KernelIdeal.GateHost.wrapIdx Cert.ReferenceIdeal.RefRun.wrapIdx
  rfl

end Cert.Bridge

end
-- ==== Proof.lean ====
/-
  The certificate of the gated graph layer: a blocked kernel over both row families at once against a reference that
  treats one family at a time.

  At the extended reals both programs compute, for table row R (family R / 100000, family row R % 100000) and column j,

      gate ( Σ_k LI[r,k] · Ws[k,j]  +  Σ_k (L[r,k] · ebs[R,k]) · Wd[k,j] ),

  over the same four sparse aggregates of the arguments.  The kernel's program stacks the families' aggregates and
  weights and reads blocks of 5000 rows of member f; its products accumulate from zero; it tests `x > 0`.  The reference
  takes each family's 100000 rows of the table, multiplies whole matrices, tests `x ≥ 0`, and joins the two families.
  None of these is a difference at the extended reals, and no law used needs finiteness: the precondition is never opened.
  The three frames are the generated frame runs (the reference's: its run with the result dropped); the idealization
  rewrote no operation, so `preserves` is trivial.
-/
import proofs.«101847_j11192684773414_2_alg».proof.Defs
import proofs.«101847_j11192684773414_2_alg».proof.Proof.Gen.Kernel
import proofs.«101847_j11192684773414_2_alg».proof.Proof.Gen.Kernel.Skeleton
import proofs.«101847_j11192684773414_2_alg».proof.Proof.Gen.Kernel.Launch
import proofs.«101847_j11192684773414_2_alg».proof.Proof.Gen.Kernel.Points
import proofs.«101847_j11192684773414_2_alg».proof.Proof.Gen.Kernel.Frame
import proofs.«101847_j11192684773414_2_alg».proof.Proof.Gen.KernelIdeal
import proofs.«101847_j11192684773414_2_alg».proof.Proof.Gen.KernelIdeal.Skeleton
import proofs.«101847_j11192684773414_2_alg».proof.Proof.Gen.KernelIdeal.Launch
import proofs.«101847_j11192684773414_2_alg».proof.Proof.Gen.KernelIdeal.Points
import proofs.«101847_j11192684773414_2_alg».proof.Proof.Gen.KernelIdeal.Frame
import proofs.«101847_j11192684773414_2_alg».proof.Proof.Gen.KernelIdeal.Value
import proofs.«101847_j11192684773414_2_alg».proof.Proof.Gen.ReferenceIdeal
import proofs.«101847_j11192684773414_2_alg».proof.Proof.Gen.Pre_finite_inputs
import proofs.«101847_j11192684773414_2_alg».proof.Proof.KernelRun
import proofs.«101847_j11192684773414_2_alg».proof.Proof.RefValue
import proofs.«101847_j11192684773414_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Both runs end with the result array at the layer `G` of arguments that agree: the kernel's by the blocks' cover,
    the reference's index by index, the sparse aggregates one function on both sides. -/
theorem algebraic : Cert.algebraic_KernelIdeal_ReferenceIdeal := by
  intro m ρ m' ρ' _ hagree
  refine ⟨_, Cert.KernelIdeal.GateValue.kernel_run m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7, e8, e9, e10, e11, e12, e13, e14, e15, e16⟩ := hagree c
  rw [e0, e1, e2, e3, e4, e5, e6, e7, e8, e9, e10, e11, e12, e13, e14, e15, e16, Cert.ReferenceIdeal.RefValue.out_eq]
  simp only [Cert.Bridge.spmm_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
